-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1700000x64 : Shape := ⟨2, ![1700000, 64]⟩
abbrev S100000x32 : Shape := ⟨2, ![100000, 32]⟩
abbrev S5000x32 : Shape := ⟨2, ![5000, 32]⟩
abbrev S1x64 : Shape := ⟨2, ![1, 64]⟩
abbrev S1700000x32 : Shape := ⟨2, ![1700000, 32]⟩
abbrev S1x32 : Shape := ⟨2, ![1, 32]⟩

abbrev nBuf : Space → Nat
  | .hbm => 66
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .bf16⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x64, .bf16⟩
  | .hbm, ⟨41, _⟩ => ⟨S1700000x64, .f32⟩
  | .hbm, ⟨42, _⟩ => ⟨S_, .f32⟩
  | .hbm, ⟨43, _⟩ => ⟨S100000x64, .f32⟩
  | .hbm, ⟨44, _⟩ => ⟨S1700000x1, .i32⟩
  | .hbm, ⟨45, _⟩ => ⟨S100000x64, .f32⟩
  | .hbm, ⟨46, _⟩ => ⟨S100000x32, .bf16⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .bf16⟩
  | .hbm, ⟨56, _⟩ => ⟨S1700000x32, .f32⟩
  | .hbm, ⟨57, _⟩ => ⟨S_, .f32⟩
  | .hbm, ⟨58, _⟩ => ⟨S100000x32, .f32⟩
  | .hbm, ⟨59, _⟩ => ⟨S1700000x1, .i32⟩
  | .hbm, ⟨60, _⟩ => ⟨S100000x32, .f32⟩
  | .hbm, ⟨61, _⟩ => ⟨S100000x32, .f32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64x32, .f32⟩
  | .local _ .vmem, ⟨12, _⟩ => ⟨S64, .f32⟩
  | .local _ .vmem, ⟨13, _⟩ => ⟨S5000x32, .bf16⟩
  | .local _ .vmem, ⟨14, _⟩ => ⟨S5000x32, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  packedbf16_S5000x32_S5000x32_0_0 : (Rect.unit (s := S5000x32) ![0, 0] S5000x32.size inb_S5000x32_S5000x32_0_0).PackedRows (EltTy.packing .bf16)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .bf16 = 32 ∨ (Rect.block (s := S100000x32) S5000x32.size (cc1_transform_4 i) (hinb1_4 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x64, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x32, .f32⟩
  | .hbm, ⟨101, _⟩ => ⟨S1700000x1, .f32⟩
  | .hbm, ⟨102, _⟩ => ⟨S1700000x32, .f32⟩
  | .hbm, ⟨103, _⟩ => ⟨S1700000x32, .f32⟩
  | .hbm, ⟨104, _⟩ => ⟨S_, .f32⟩
  | .hbm, ⟨105, _⟩ => ⟨S100000x32, .f32⟩
  | .hbm, ⟨106, _⟩ => ⟨S1700000x1, .i32⟩
  | .hbm, ⟨107, _⟩ => ⟨S100000x32, .f32⟩
  | .hbm, ⟨108, _⟩ => ⟨S1x32, .f32⟩
  | .hbm, ⟨109, _⟩ => ⟨S100000x32, .f32⟩
  | .hbm, ⟨110, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The kernel program's run with its result named.

  The program is two kernel regions among four stretches of host operations. Its buffer contents at the seven segment
  boundaries are a fold from the launch memory: a host stretch applies its operations' pure functions, a region leaves
  in each of its arrays what its grid points wrote back and every other buffer as it found it. Every weakly fair
  execution terminates, nothing faults, and in the final state EVERY unscoped buffer holds the last boundary's
  contents; so the result buffer holds the fold's value at it, and the six argument arrays are as launched.
  This is the frame's run (the same segments, the same thread states) with the post reading one more buffer.
-/
import proofs.«143533_j48722109005962_2_alg».proof.Proof.Gen.KernelIdeal.Frame

set_option maxRecDepth 16384

noncomputable section

-- nested under the generated modules' namespace so that their short names (`L`, `R`, `lv`, …) resolve to them first
namespace Cert.KernelIdeal.Gen.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this statement, which takes
-- unfolding plain definitions in a metavariable's type
set_option backward.isDefEq.respectTransparency.types false in
/-- Every weakly fair execution of the program terminates, nothing faulting; the result buffer ends at the last
    boundary's contents `W7` and the six arguments as launched. -/
theorem run_result : θ_run defs (onTc (τ := τ) (main (F := F))) ⟨m, fun _ => 0, ρ⟩ (fun r => ∀ c : Dev nD,
      r.2.mem ((c.tc : Thread nD τ).loc main_v46) = W7 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v46 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Gen.KRun

end
-- ==== Proof.LibGatherRows.lean ====
/-
  Looking whole rows of a matrix up at a column of indices, read at one position.

  `x[idx]` for a matrix `x : [N, D]` and an integer vector `idx : [R]` is lowered to a gather whose start indices are the
  vector written as a column `[R, 1]` (the index vector lies along axis 1), with the operand's row axis collapsed, its
  column axis the result's offset axis, and a slice of one whole row. Result entry `(t, j)` is `x` at the row
  `idx[t, 0]` — read as a signed integer and clamped into `[0, N - 1]`, as the gather clamps every start index — and at
  the column `j`. This is the rank-2 companion of the library's reading of a gather of a flat array
  (`ValueIdx.gather_take_apply`), proved the same way, one operand axis at a time.
-/
import Idealize.ShloMosaic.Lib.ValueIdx

noncomputable section

namespace Cert.LibGatherRows

open Idealize.ShloMosaic Idealize.ShloMosaic.ValueIdx

variable {α : Type}

/-- The dimension numbers of that gather for an operand `[N, D]`, start indices `[R, 1]` and a result `[R, D]`. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices position `[t, 0]` of result position `(t, j)`. -/
abbrev rowIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The gather read at `(t, j)`: the operand at the row `idx[t, 0]`, read signed and clamped into `[0, N - 1]`, and at
    the column `j`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N D R wf) x idx y
      = x (ix2 ⟨min (idx (rowIdx y)).toInt.toNat (N - 1), by omega⟩ ⟨(y 1).val, idx2_lt1 y⟩) := by
  unfold Host.gather
  congr 1
  funext a
  refine Fin.ext ?_
  match a with
  | ⟨0, _⟩ =>
    show (rowDims N D R wf).start y idx 0 + (rowDims N D R wf).batchCoord y 0 + (rowDims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx y ⟨List.idxOf (0 : Fin 2) (rowDims N D R wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N D R wf).start y idx 1 + (rowDims N D R wf).batchCoord y 1 + (rowDims N D R wf).offCoord y 1 = (y 1).val
    have h1 : (1 : Fin 2) ∉ (rowDims N D R wf).startIndexMap := show (1 : Fin 2) ∉ [(0 : Fin 2)] from by decide
    have hk : (1 : Fin 2) ∈ (rowDims N D R wf).sKept :=
      (GatherDims.mem_sKept _ _).mpr ⟨show (1 : Fin 2) ∉ [(0 : Fin 2)] from by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Cert.LibGatherRows

end
-- ==== Proof.LibGatherColumn.lean ====
/-
  Looking entries of a flat array up at a column of indices, read at one position.

  `x[idx]` for a flat array `x : [N]` and an integer vector `idx : [R]` is lowered to a gather whose start indices are the
  vector written as a column `[R, 1]` (the index vector lies along axis 1), with the operand's one axis collapsed and a
  slice of one entry. Result entry `t` is `x` at the start index `idx[t, 0]`, read as a signed integer and clamped
  into `[0, N - 1]`, as the gather clamps every start index. This is the rank-1 companion of the library's reading of a
  gather at a rank-2 array of start indices (`ValueIdx.gather_take_apply`), proved the same way.
-/
import Idealize.ShloMosaic.Lib.ValueIdx

noncomputable section

namespace Cert.LibGatherColumn

open Idealize.ShloMosaic Idealize.ShloMosaic.ValueIdx

variable {α : Type}

/-- The dimension numbers of that gather for an operand `[N]`, start indices `[R, 1]` and a result `[R]`. -/
abbrev colDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The start-indices position `[t, 0]` of result position `t`. -/
abbrev colIdx {R : Nat} (y : (⟨1, ![R]⟩ : Shape).Idx) : (⟨2, ![R, 1]⟩ : Shape).Idx :=
  fun a => match a with | ⟨0, _⟩ => ⟨(y 0).val, (y 0).isLt⟩ | ⟨1, _⟩ => ⟨0, Nat.one_pos⟩

/-- The gather read at `t`: the operand at the start index `idx[t, 0]`, read signed and clamped into `[0, N - 1]`. -/
theorem gather_col_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (colDims N R wf) x idx y = x (ix1 ⟨min (idx (colIdx y)).toInt.toNat (N - 1), by omega⟩) := by
  unfold Host.gather
  congr 1
  funext a
  obtain rfl : a = 0 := Subsingleton.elim _ _
  refine Fin.ext ?_
  show (colDims N R wf).start y idx 0 + (colDims N R wf).batchCoord y 0 + (colDims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx y ⟨List.idxOf (0 : Fin 1) (colDims N R wf).startIndexMap,
      List.idxOf_lt_length_iff.2 (List.mem_singleton.mpr rfl)⟩ = colIdx y := by
    funext b; refine Fin.ext ?_
    match b with
    | ⟨0, _⟩ => rfl
    | ⟨1, _⟩ => rfl
  rw [hsi]
  rfl

end Cert.LibGatherColumn

end
-- ==== Proof.LibScatterRows.lean ====
/-
  The accumulating scatter at the extended reals, read at one index, for the two dimension-number patterns of a
  segment sum, every extent a variable.

  ROWS: operand `[N, H]`, scatter indices `[E, 1]`, updates `[E, H]`, the updates' window axis `1`, the operand's
  inserted axis `0`, the scatter index naming operand axis `0`, the index vector on axis `1`. Update `(e, c)` lands
  at row `idx[e, 0]` (read signed), column `c`, and is dropped when that row is outside `[0, N)`
  (`rows_resultIdx?_iff`); so the result at `(n, c)` is the operand's element plus the sum of `upd (e, c)` over the
  `e` whose index is `n` (`scatterRows_apply`).

  VECTOR: operand `[N]`, scatter indices `[E, 1]`, updates `[E]`, no window axis. Update `e` lands at `idx[e, 0]`
  (`vec_resultIdx?_iff`); the result at `n` is the operand's element plus the sum of `upd e` over the same set of
  `e` (`scatterVec_apply`).

  Both rest on one general fact: an update lands at `i` exactly when start plus window coordinate is `i`'s
  coordinate on every operand axis (`resultIdx?_eq_some_iff`).
-/
import Idealize.ShloMosaic.PureOps.Ideal
import Idealize.ShloMosaic.Lib.ValueIdx

open scoped BigOperators
open Idealize.ShloMosaic Idealize.ShloMosaic.ValueIdx

noncomputable section

namespace Cert.LibScatterRows

/-- An update lands at operand index `i` exactly when, on every operand axis, its window's start plus its window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      rw [← hi]
      simp only
      omega
    · intro hi
      funext a
      apply Fin.ext
      have h1 := h a
      have h2 := hi a
      simp only
      omega
  · rename_i h
    constructor
    · intro hn; exact absurd hn (by simp)
    · intro hi
      exfalso
      apply h
      intro a
      have h2 := hi a
      have h3 := (i a).isLt
      omega

variable (N E H : Nat)

/-- The row scatter's dimension numbers. -/
abbrev rowDims (hwf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ := ⟨[1], [0], [0], 1, hwf⟩

/-- A dependent index read at an axis equal to `a` has the value read at `a`. -/
theorem idx_val_congr {s : Shape} (j : s.Idx) {a b : Fin s.rank} (h : a = b) : (j a).val = (j b).val := by
  subst h; rfl

/-- A row update reads its scatter index at its own row, component `0`. -/
theorem rows_siIdx (hwf) (e : Fin E) (c' : Fin H) (c) :
    (rowDims N E H hwf).siIdx (ix2 e c') c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix2 e c') rfl
  | ⟨1, _⟩ =>
    apply Fin.ext
    simp only [ScatterDims.siIdx]
    rw [dif_pos trivial]
    have := c.isLt
    simp only [List.length_singleton] at this
    show c.val = 0
    omega

/-- On the row axis a row update's window starts at its scatter index, read signed. -/
theorem rows_start0 {w : Nat} (hwf) (e : Fin E) (c' : Fin H) (idx : IVec ⟨2, ![E, 1]⟩ w) :
    (rowDims N E H hwf).start (ix2 e c') idx (0 : Fin 2) = (idx (ix2 e (0 : Fin 1))).toInt := by
  unfold ScatterDims.start
  rw [dif_pos (show (0 : Fin 2) ∈ [(0 : Fin 2)] by decide)]
  rw [rows_siIdx]

/-- On the column axis a row update's window starts at `0`. -/
theorem rows_start1 {w : Nat} (hwf) (e : Fin E) (c' : Fin H) (idx : IVec ⟨2, ![E, 1]⟩ w) :
    (rowDims N E H hwf).start (ix2 e c') idx (1 : Fin 2) = 0 := by
  unfold ScatterDims.start
  rw [dif_neg (show (1 : Fin 2) ∉ [(0 : Fin 2)] by decide)]

/-- A row update has no window coordinate on the (inserted) row axis. -/
theorem rows_window0 (hwf) (e : Fin E) (c' : Fin H) :
    (rowDims N E H hwf).window (ix2 e c') (0 : Fin 2) = 0 := by
  unfold ScatterDims.window
  have h : (0 : Fin 2) ∉ (rowDims N E H hwf).sKept := (show (0 : Fin 2) ∉ [(1 : Fin 2)] by decide)
  rw [dif_neg h]

/-- A row update's window coordinate on the column axis is its own column. -/
theorem rows_window1 (hwf) (e : Fin E) (c' : Fin H) :
    (rowDims N E H hwf).window (ix2 e c') (1 : Fin 2) = c'.val := by
  unfold ScatterDims.window
  have h : (1 : Fin 2) ∈ (rowDims N E H hwf).sKept := (show (1 : Fin 2) ∈ [(1 : Fin 2)] by decide)
  rw [dif_pos h]
  exact idx_val_congr (ix2 e c') rfl

/-- A row update lands at row `n`, column `c` exactly when its scatter index, read signed, is `n` and its own
    column is `c`. -/
theorem rows_resultIdx?_iff {w : Nat} (hwf) (idx : IVec ⟨2, ![E, 1]⟩ w) (e : Fin E) (c' c : Fin H) (n : Fin N) :
    (rowDims N E H hwf).resultIdx? (ix2 e c') idx = some (ix2 n c)
      ↔ (idx (ix2 e (0 : Fin 1))).toInt = (n.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    change _ = (n.val : Int) at h0
    change _ = (c.val : Int) at h1
    exact ⟨by omega, Fin.ext (by omega)⟩
  · rintro ⟨h0, rfl⟩ a
    match a with
    | ⟨0, _⟩ =>
      show (rowDims N E H hwf).start (ix2 e c') idx (0 : Fin 2) + ((rowDims N E H hwf).window (ix2 e c') (0 : Fin 2) : Int)
        = (n.val : Int)
      rw [rows_start0, rows_window0]; omega
    | ⟨1, _⟩ =>
      show (rowDims N E H hwf).start (ix2 e c') idx (1 : Fin 2) + ((rowDims N E H hwf).window (ix2 e c') (1 : Fin 2) : Int)
        = (c'.val : Int)
      rw [rows_start1, rows_window1]; omega

/-- The row scatter read at row `n`, column `c`: the operand's element plus the sum, over the updates whose scatter
    index (read signed) is `n`, of their column-`c` elements. -/
theorem scatterRows_apply {w : Nat} (hwf : ScatterDims.WF ⟨2, ![N, H]⟩ ⟨2, ![E, 1]⟩ ⟨2, ![E, H]⟩ [1] [0] [0] 1)
    (x : (⟨2, ![N, H]⟩ : Shape).Idx → EReal) (idx : IVec ⟨2, ![E, 1]⟩ w) (upd : (⟨2, ![E, H]⟩ : Shape).Idx → EReal)
    (n : Fin N) (c : Fin H) :
    Ideal.hostScatterAdd (⟨[1], [0], [0], 1, hwf⟩ : ScatterDims ⟨2, ![N, H]⟩ ⟨2, ![E, 1]⟩ ⟨2, ![E, H]⟩) x idx upd (ix2 n c)
      = x (ix2 n c) + ∑ e ∈ Finset.univ.filter (fun e : Fin E => (idx (ix2 e (0 : Fin 1))).toInt = (n.val : Int)),
          upd (ix2 e c) := by
  show Ideal.hostScatterAdd (rowDims N E H hwf) x idx upd (ix2 n c) = _
  unfold Ideal.hostScatterAdd
  congr 1
  rw [Finset.sum_filter, sum_idx2, Finset.sum_filter]
  refine Finset.sum_congr rfl (fun e _ => ?_)
  by_cases h : (idx (ix2 e (0 : Fin 1))).toInt = (n.val : Int)
  · rw [if_pos h, Finset.sum_eq_single c]
    · rw [if_pos ((rows_resultIdx?_iff N E H hwf idx e c c n).2 ⟨h, rfl⟩)]
    · intro c' _ hc'
      rw [if_neg (fun hh => hc' ((rows_resultIdx?_iff N E H hwf idx e c' c n).1 hh).2)]
    · intro hc; exact absurd (Finset.mem_univ c) hc
  · rw [if_neg h]
    refine Finset.sum_eq_zero (fun c' _ => ?_)
    rw [if_neg (fun hh => h ((rows_resultIdx?_iff N E H hwf idx e c' c n).1 hh).1)]

/-- The vector scatter's dimension numbers. -/
abbrev vecDims (hwf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, hwf⟩

/-- A vector update reads its scatter index at its own position, component `0`. -/
theorem vec_siIdx (hwf) (e : Fin E) (c) :
    (vecDims N E hwf).siIdx (ix1 e) c = ix2 e (0 : Fin 1) := by
  funext b
  match b with
  | ⟨0, _⟩ =>
    apply Fin.ext
    simp only [ScatterDims.siIdx]
    rw [dif_neg (by decide)]
    simp only [ScatterDims.siCoord, Fin.coe_cast]
    exact idx_val_congr (ix1 e) rfl
  | ⟨1, _⟩ =>
    apply Fin.ext
    simp only [ScatterDims.siIdx]
    rw [dif_pos trivial]
    have := c.isLt
    simp only [List.length_singleton] at this
    show c.val = 0
    omega

/-- A vector update's window starts at its scatter index, read signed. -/
theorem vec_start0 {w : Nat} (hwf) (e : Fin E) (idx : IVec ⟨2, ![E, 1]⟩ w) :
    (vecDims N E hwf).start (ix1 e) idx (0 : Fin 1) = (idx (ix2 e (0 : Fin 1))).toInt := by
  unfold ScatterDims.start
  rw [dif_pos (show (0 : Fin 1) ∈ [(0 : Fin 1)] by decide)]
  rw [vec_siIdx]

/-- A vector update has no window coordinate on the one (inserted) axis. -/
theorem vec_window0 (hwf) (e : Fin E) :
    (vecDims N E hwf).window (ix1 e) (0 : Fin 1) = 0 := by
  unfold ScatterDims.window
  have h : (0 : Fin 1) ∉ (vecDims N E hwf).sKept := (show (0 : Fin 1) ∉ ([] : List (Fin 1)) by decide)
  rw [dif_neg h]

/-- A vector update lands at position `n` exactly when its scatter index, read signed, is `n`. -/
theorem vec_resultIdx?_iff {w : Nat} (hwf) (idx : IVec ⟨2, ![E, 1]⟩ w) (e : Fin E) (n : Fin N) :
    (vecDims N E hwf).resultIdx? (ix1 e) idx = some (ix1 n)
      ↔ (idx (ix2 e (0 : Fin 1))).toInt = (n.val : Int) := by
  rw [resultIdx?_eq_some_iff]
  constructor
  · intro h
    have h0 := h (0 : Fin 1)
    rw [vec_start0, vec_window0] at h0
    change _ = (n.val : Int) at h0
    omega
  · intro h0 a
    match a with
    | ⟨0, _⟩ =>
      show (vecDims N E hwf).start (ix1 e) idx (0 : Fin 1) + ((vecDims N E hwf).window (ix1 e) (0 : Fin 1) : Int)
        = (n.val : Int)
      rw [vec_start0, vec_window0]; omega

/-- A sum over a rank-1 index set is the sum over its coordinate. -/
theorem sum_idx1 {M : Type*} [AddCommMonoid M] {n0 : Nat} (f : (⟨1, ![n0]⟩ : Shape).Idx → M) :
    ∑ i, f i = ∑ a : Fin n0, f (ix1 a) := by
  refine Fintype.sum_equiv ⟨fun i => i 0, fun a => ix1 a, fun i => (eq_ix1 i).symm, fun _ => rfl⟩ _ _ (fun i => ?_)
  exact congrArg f (eq_ix1 i)

/-- The vector scatter read at position `n`: the operand's element plus the sum of the updates whose scatter index
    (read signed) is `n`. -/
theorem scatterVec_apply {w : Nat} (hwf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (⟨[], [0], [0], 1, hwf⟩ : ScatterDims ⟨1, ![N]⟩ ⟨2, ![E, 1]⟩ ⟨1, ![E]⟩) x idx upd (ix1 n)
      = x (ix1 n) + ∑ e ∈ Finset.univ.filter (fun e : Fin E => (idx (ix2 e (0 : Fin 1))).toInt = (n.val : Int)),
          upd (ix1 e) := by
  show Ideal.hostScatterAdd (vecDims N E hwf) x idx upd (ix1 n) = _
  unfold Ideal.hostScatterAdd
  congr 1
  rw [Finset.sum_filter, sum_idx1, Finset.sum_filter]
  refine Finset.sum_congr rfl (fun e _ => ?_)
  by_cases h : (idx (ix2 e (0 : Fin 1))).toInt = (n.val : Int)
  · rw [if_pos h, if_pos ((vec_resultIdx?_iff N E hwf idx e n).2 h)]
  · rw [if_neg h, if_neg (fun hh => h ((vec_resultIdx?_iff N E hwf idx e n).1 hh))]

end Cert.LibScatterRows
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.RefReadOps.lean ====
/-
  The three non-pointwise operations of a graph-convolution layer over 1,700,000 edges and 100,000 nodes, each read at
  one position with the index column written as a vector spread along a unit axis.

  * Looking a vector of node values up at the edges' node indices: entry e is the vector at the index of edge e, read
    as a signed integer and clamped into [0, 99999].
  * Looking whole rows of a node matrix up at the edges' node indices: entry (e, c) is the matrix at that row and at
    column c.
  * Adding the edges' rows into a matrix of zeros at the edges' target indices: entry (n, c) is zero plus the sum,
    over the edges whose target index read signed is n, of their entries at column c.
-/
import proofs.«143533_j48722109005962_2_alg».proof.Proof.RefReadP
import proofs.«143533_j48722109005962_2_alg».proof.Proof.LibGatherRows
import proofs.«143533_j48722109005962_2_alg».proof.Proof.LibGatherColumn
import proofs.«143533_j48722109005962_2_alg».proof.Proof.LibScatterRows
import proofs.«143533_j48722109005962_2_alg».proof.Proof.LibHostBroadcast

noncomputable section

namespace Cert.ReferenceIdeal.RefValue

open Cert.ReferenceIdeal Cert.ReferenceIdeal.Gen Cert.ReferenceIdeal.ReadP Idealize.ShloMosaic Idealize.ShloMosaic.ValueIdx

/-- The node an index word names: the word read signed, clamped into [0, 99999]. -/
def node (w : BitVec 32) : Fin 100000 := ⟨min w.toInt.toNat (100000 - 1), by omega⟩

/-- An index vector written as a column reads, at (e, 0), the vector at e. -/
theorem col_apply (v : S1700000.Idx → BitVec 32) (e : Fin 1700000) (u : Fin 1) :
    broadcastInDim S1700000x1 ![0] bcast_S1700000_S1700000x1_0 v (ix2 e u) = v (ix1 e) :=
  LibHostBroadcast.vec_to_col v bcast_S1700000_S1700000x1_0 e u

/-- A vector of node values looked up at a column of indices: entry e is the vector at the node the index of e names. -/
theorem gather_vec_apply {α : Type} (x : S100000.Idx → α) (v : S1700000.Idx → BitVec 32) (e : Fin 1700000) :
    Host.gather gather_S100000_S1700000x1_S1700000_n_0_n_n_0_1_1 x
        (broadcastInDim S1700000x1 ![0] bcast_S1700000_S1700000x1_0 v) (ix1 e)
      = x (ix1 (node (v (ix1 e)))) := by
  have hd : gather_S100000_S1700000x1_S1700000_n_0_n_n_0_1_1
      = LibGatherColumn.colDims 100000 1700000 gather_S100000_S1700000x1_S1700000_n_0_n_n_0_1_1_wf := rfl
  rw [hd]
  refine (LibGatherColumn.gather_col_apply (by decide) _ x _ (ix1 e)).trans ?_
  have hi : LibGatherColumn.colIdx (ix1 e) = ix2 e (0 : Fin 1) := by
    funext a
    match a with
    | ⟨0, _⟩ => rfl
    | ⟨1, _⟩ => rfl
  refine congrArg x (congrArg ix1 (Fin.ext ?_))
  show min (broadcastInDim S1700000x1 ![0] bcast_S1700000_S1700000x1_0 v (LibGatherColumn.colIdx (ix1 e))).toInt.toNat (100000 - 1) = _
  rw [hi, col_apply]
  rfl

/-- Whole rows of a node matrix looked up at a column of indices: entry (e, c) is the matrix at the row the index of e
    names and at column c. -/
theorem gather_rows_apply {α : Type} {D : Nat}
    (wf : GatherDims.WF ⟨2, ![100000, D]⟩ ⟨2, ![1700000, 1]⟩ ⟨2, ![1700000, D]⟩ [1] [0] [] [0] [] 1 ![1, D])
    (x : (⟨2, ![100000, D]⟩ : Shape).Idx → α) (v : S1700000.Idx → BitVec 32) (e : Fin 1700000) (c : Fin D) :
    Host.gather (LibGatherRows.rowDims 100000 D 1700000 wf) x
        (broadcastInDim S1700000x1 ![0] bcast_S1700000_S1700000x1_0 v) (ix2 e c)
      = x (ix2 (node (v (ix1 e))) c) := by
  refine (LibGatherRows.gather_rows_apply (by decide) wf x _ (ix2 e c)).trans ?_
  refine congrArg x ?_
  have hi : LibGatherRows.rowIdx (ix2 e c) = ix2 e (0 : Fin 1) := by
    funext a
    match a with
    | ⟨0, _⟩ => rfl
    | ⟨1, _⟩ => rfl
  have h : (broadcastInDim S1700000x1 ![0] bcast_S1700000_S1700000x1_0 v (LibGatherRows.rowIdx (ix2 e c)))
      = v (ix1 e) := by rw [hi]; exact col_apply v e 0
  funext a
  match a with
  | ⟨0, _⟩ => exact Fin.ext (by show min _ _ = _; rw [h]; rfl)
  | ⟨1, _⟩ => rfl

/-- Rows added into a matrix that holds one value everywhere, at a column of target indices: entry (n, c) is that value
    plus the sum, over the edges whose target index read signed is n, of their entries at column c. -/
theorem scatter_rows_apply {H : Nat}
    (hwf : ScatterDims.WF ⟨2, ![100000, H]⟩ ⟨2, ![1700000, 1]⟩ ⟨2, ![1700000, H]⟩ [1] [0] [0] 1)
    (hb : S_.BroadcastsInDim ⟨2, ![100000, H]⟩ (![] : Fin 0 → Fin 2))
    (z : S_.Idx → EReal) (v : S1700000.Idx → BitVec 32) (upd : (⟨2, ![1700000, H]⟩ : Shape).Idx → EReal)
    (n : Fin 100000) (c : Fin H) :
    Host.scatterAdd (F := Ideal) (φ := .f32)
        (⟨[1], [0], [0], 1, hwf⟩ : ScatterDims ⟨2, ![100000, H]⟩ ⟨2, ![1700000, 1]⟩ ⟨2, ![1700000, H]⟩)
        (broadcastInDim ⟨2, ![100000, H]⟩ ![] hb z)
        (broadcastInDim S1700000x1 ![0] bcast_S1700000_S1700000x1_0 v) upd (ix2 n c)
      = z ix0 + ∑ e ∈ Finset.univ.filter (fun e : Fin 1700000 => (v (ix1 e)).toInt = (n.val : Int)), upd (ix2 e c) := by
  show Ideal.hostScatterAdd _ _ _ _ _ = _
  refine (LibScatterRows.scatterRows_apply 100000 1700000 H hwf _ _ upd n c).trans ?_
  rw [LibHostBroadcast.scalar_to_any z hb (ix2 n c)]
  refine congrArg (z ix0 + ·) (Finset.sum_congr (Finset.filter_congr fun e _ => ?_) fun _ _ => rfl)
  rw [col_apply]

end Cert.ReferenceIdeal.RefValue

end
-- ==== Proof.RefRead.lean ====
/-
  The reference program (two graph-convolution layers over 1,700,000 edges and 100,000 nodes) read entry by entry at
  the extended reals.

  Write src e and tgc e for the nodes that the source and the target index of edge e name after the negative wrap (read
  signed, clamped into [0, 99999]), dis for the degree factor and inb n for the set of edges whose target index, read
  signed, is n. Then
    (x W1) (m, k)  = sum over j of x (m, j) * W1 (j, k),
    pre1 (n, k)    = (0 + sum over e in inb n of (x W1) (src e, k) * (dis (src e) * dis (tgc e))) + b1 k,
    hidden2 (m, c) = sum over k of max (pre1 (m, k)) 0 * W2 (k, c),
    out (n, c)     = (0 + sum over e in inb n of hidden2 (src e, c) * (dis (src e) * dis (tgc e))) + b2 c.
-/
import proofs.«143533_j48722109005962_2_alg».proof.Proof.RefReadOps

noncomputable section

namespace Cert.ReferenceIdeal.RefValue

open Cert.ReferenceIdeal Cert.ReferenceIdeal.Gen Cert.ReferenceIdeal.ReadP Idealize.ShloMosaic Idealize.ShloMosaic.ValueIdx

variable (x0 : (⟨S100000x128, .f32⟩ : BufTy).Contents (Elt Ideal))
  (x1 : (⟨S2x1600000, .i32⟩ : BufTy).Contents (Elt Ideal))
  (x2 : (⟨S128x64, .f32⟩ : BufTy).Contents (Elt Ideal))
  (x3 : (⟨S64, .f32⟩ : BufTy).Contents (Elt Ideal))
  (x4 : (⟨S64x32, .f32⟩ : BufTy).Contents (Elt Ideal))
  (x5 : (⟨S32, .f32⟩ : BufTy).Contents (Elt Ideal))

/-- The edges whose target index, read signed, is n. -/
def inb (n : Fin 100000) : Finset (Fin 1700000) :=
  Finset.univ.filter fun e => (val_main_v6 (F := Ideal) x1 (ix1 e)).toInt = (n.val : Int)

/-- The node an edge's wrapped source index names, clamped into range. -/
def src (e : Fin 1700000) : Fin 100000 :=
  ⟨min (val_main_v22 (F := Ideal) x1 (ix1 e)).toInt.toNat (100000 - 1), by omega⟩

/-- The node an edge's wrapped target index names, clamped into range. -/
def tgc (e : Fin 1700000) : Fin 100000 :=
  ⟨min (val_main_v29 (F := Ideal) x1 (ix1 e)).toInt.toNat (100000 - 1), by omega⟩

theorem src_eq (e : Fin 1700000) : src x1 e = node (val_main_v22 (F := Ideal) x1 (ix1 e)) := rfl
theorem tgc_eq (e : Fin 1700000) : tgc x1 e = node (val_main_v29 (F := Ideal) x1 (ix1 e)) := rfl

/-! ## The wrapped index vectors are computed once per use, by the same operations -/

theorem v37_eq : val_main_v37 (F := Ideal) x1 = val_main_v22 (F := Ideal) x1 := rfl
theorem v55_eq : val_main_v55 (F := Ideal) x1 = val_main_v22 (F := Ideal) x1 := rfl
theorem v70_eq : val_main_v70 (F := Ideal) x1 = val_main_v22 (F := Ideal) x1 := rfl
theorem v62_eq : val_main_v62 (F := Ideal) x1 = val_main_v29 (F := Ideal) x1 := rfl

/-! ## The zero words -/

theorem cst9_zero : val_main_cst_9 (F := Ideal) ix0 = 0 := Ideal.ofBits_zero_f32
theorem cst16_zero : val_main_cst_16 (F := Ideal) ix0 = 0 := Ideal.ofBits_zero_f32

/-! ## The edge weights -/

theorem v24_apply (e : Fin 1700000) :
    val_main_v24 (F := Ideal) x1 (ix1 e) = val_main_v16 (F := Ideal) x1 (ix1 (src x1 e)) := by
  unfold val_main_v24 val_main_v23
  exact gather_vec_apply _ _ e

theorem v31_apply (e : Fin 1700000) :
    val_main_v31 (F := Ideal) x1 (ix1 e) = val_main_v16 (F := Ideal) x1 (ix1 (tgc x1 e)) := by
  unfold val_main_v31 val_main_v30
  exact gather_vec_apply _ _ e

theorem v57_apply (e : Fin 1700000) :
    val_main_v57 (F := Ideal) x1 (ix1 e) = val_main_v16 (F := Ideal) x1 (ix1 (src x1 e)) := by
  unfold val_main_v57 val_main_v56
  rw [v55_eq]
  exact gather_vec_apply _ _ e

theorem v64_apply (e : Fin 1700000) :
    val_main_v64 (F := Ideal) x1 (ix1 e) = val_main_v16 (F := Ideal) x1 (ix1 (tgc x1 e)) := by
  unfold val_main_v64 val_main_v63
  rw [v62_eq]
  exact gather_vec_apply _ _ e

/-- The first layer's edge weight: the degree factor at the source node times the degree factor at the target node. -/
theorem w1_apply (e : Fin 1700000) :
    val_main_v32 (F := Ideal) x1 (ix1 e)
      = val_main_v16 (F := Ideal) x1 (ix1 (src x1 e)) * val_main_v16 (F := Ideal) x1 (ix1 (tgc x1 e)) := by
  rw [val_main_v32_apply, Ideal.mulf_def, v24_apply, v31_apply]

/-- The second layer's edge weight is the same product. -/
theorem w2_apply (e : Fin 1700000) :
    val_main_v65 (F := Ideal) x1 (ix1 e)
      = val_main_v16 (F := Ideal) x1 (ix1 (src x1 e)) * val_main_v16 (F := Ideal) x1 (ix1 (tgc x1 e)) := by
  rw [val_main_v65_apply, Ideal.mulf_def, v57_apply, v64_apply]

/-! ## The second layer -/

/-- The second bias spread over the rows. -/
theorem v80_apply (n : Fin 100000) (c : Fin 32) : val_main_v80 (F := Ideal) x5 (ix2 n c) = x5 (ix1 c) := by
  unfold val_main_v80 val_main_v79
  exact LibHostBroadcast.vec_along_cols x5 bcast_S32_S1x32_1 bcast_S1x32_S100000x32_0_1 n c

/-- The second layer's edge weight spread along the columns. -/
theorem v74_apply (e : Fin 1700000) (c : Fin 32) :
    val_main_v74 (F := Ideal) x1 (ix2 e c) = val_main_v65 (F := Ideal) x1 (ix1 e) := by
  unfold val_main_v74 val_main_v73
  exact LibHostBroadcast.vec_along_rows _ bcast_S1700000_S1700000x1_0 bcast_S1700000x1_S1700000x32_0_1 e c

/-- The rows of the second layer's product looked up at the source nodes. -/
theorem v72_apply (e : Fin 1700000) (c : Fin 32) :
    val_main_v72 (F := Ideal) x0 x1 x2 x3 x4 (ix2 e c)
      = val_main_v50 (F := Ideal) x0 x1 x2 x3 x4 (ix2 (src x1 e) c) := by
  unfold val_main_v72 val_main_v71
  rw [v70_eq]
  exact gather_rows_apply gather_S100000x32_S1700000x1_S1700000x32_1_0_n_n_0_1_132_wf _ _ e c

/-- One edge's contribution to the second layer's sum. -/
theorem v75_apply (e : Fin 1700000) (c : Fin 32) :
    val_main_v75 (F := Ideal) x0 x1 x2 x3 x4 (ix2 e c)
      = val_main_v50 (F := Ideal) x0 x1 x2 x3 x4 (ix2 (src x1 e) c)
        * (val_main_v16 (F := Ideal) x1 (ix1 (src x1 e)) * val_main_v16 (F := Ideal) x1 (ix1 (tgc x1 e))) := by
  rw [val_main_v75_apply, Ideal.mulf_def, v72_apply, v74_apply, w2_apply]

/-- The second layer's sum over the incoming edges. -/
theorem v78_apply (n : Fin 100000) (c : Fin 32) :
    val_main_v78 (F := Ideal) x0 x1 x2 x3 x4 (ix2 n c)
      = 0 + ∑ e ∈ inb x1 n, val_main_v50 (F := Ideal) x0 x1 x2 x3 x4 (ix2 (src x1 e) c)
          * (val_main_v16 (F := Ideal) x1 (ix1 (src x1 e)) * val_main_v16 (F := Ideal) x1 (ix1 (tgc x1 e))) := by
  unfold val_main_v78 val_main_v76 val_main_v77
  refine (scatter_rows_apply scatter_S100000x32_S1700000x1_S1700000x32_1_0_0_1_wf bcast_S_S100000x32 _ _ _ n c).trans ?_
  rw [cst16_zero]
  exact congrArg (0 + ·) (Finset.sum_congr rfl fun e _ => v75_apply x0 x1 x2 x3 x4 e c)

/-- The program's result at (n, c). -/
theorem out_apply (n : Fin 100000) (c : Fin 32) :
    val_main_v81 (F := Ideal) x0 x1 x2 x3 x4 x5 (ix2 n c)
      = (0 + ∑ e ∈ inb x1 n, val_main_v50 (F := Ideal) x0 x1 x2 x3 x4 (ix2 (src x1 e) c)
          * (val_main_v16 (F := Ideal) x1 (ix1 (src x1 e)) * val_main_v16 (F := Ideal) x1 (ix1 (tgc x1 e))))
        + x5 (ix1 c) := by
  rw [val_main_v81_apply, Ideal.addf_def, v80_apply, v78_apply]

/-! ## The first layer -/

/-- The first bias spread over the rows. -/
theorem v47_apply (n : Fin 100000) (k : Fin 64) : val_main_v47 (F := Ideal) x3 (ix2 n k) = x3 (ix1 k) := by
  unfold val_main_v47 val_main_v46
  exact LibHostBroadcast.vec_along_cols x3 bcast_S64_S1x64_1 bcast_S1x64_S100000x64_0_1 n k

/-- The first layer's edge weight spread along the columns. -/
theorem v41_apply (e : Fin 1700000) (k : Fin 64) :
    val_main_v41 (F := Ideal) x1 (ix2 e k) = val_main_v32 (F := Ideal) x1 (ix1 e) := by
  unfold val_main_v41 val_main_v40
  exact LibHostBroadcast.vec_along_rows _ bcast_S1700000_S1700000x1_0 bcast_S1700000x1_S1700000x64_0_1 e k

/-- The rows of the first layer's product looked up at the source nodes. -/
theorem v39_apply (e : Fin 1700000) (k : Fin 64) :
    val_main_v39 (F := Ideal) x0 x1 x2 (ix2 e k) = val_main_v17 (F := Ideal) x0 x2 (ix2 (src x1 e) k) := by
  unfold val_main_v39 val_main_v38
  rw [v37_eq]
  exact gather_rows_apply gather_S100000x64_S1700000x1_S1700000x64_1_0_n_n_0_1_164_wf _ _ e k

/-- One edge's contribution to the first layer's sum. -/
theorem v42_apply (e : Fin 1700000) (k : Fin 64) :
    val_main_v42 (F := Ideal) x0 x1 x2 (ix2 e k)
      = val_main_v17 (F := Ideal) x0 x2 (ix2 (src x1 e) k)
        * (val_main_v16 (F := Ideal) x1 (ix1 (src x1 e)) * val_main_v16 (F := Ideal) x1 (ix1 (tgc x1 e))) := by
  rw [val_main_v42_apply, Ideal.mulf_def, v39_apply, v41_apply, w1_apply]

/-- The first layer's sum over the incoming edges. -/
theorem v45_apply (n : Fin 100000) (k : Fin 64) :
    val_main_v45 (F := Ideal) x0 x1 x2 (ix2 n k)
      = 0 + ∑ e ∈ inb x1 n, val_main_v17 (F := Ideal) x0 x2 (ix2 (src x1 e) k)
          * (val_main_v16 (F := Ideal) x1 (ix1 (src x1 e)) * val_main_v16 (F := Ideal) x1 (ix1 (tgc x1 e))) := by
  unfold val_main_v45 val_main_v43 val_main_v44
  refine (scatter_rows_apply scatter_S100000x64_S1700000x1_S1700000x64_1_0_0_1_wf bcast_S_S100000x64 _ _ _ n k).trans ?_
  rw [cst9_zero]
  exact congrArg (0 + ·) (Finset.sum_congr rfl fun e _ => v42_apply x0 x1 x2 e k)

/-- The first layer before the rectifier, at (n, k). -/
theorem pre1_apply (n : Fin 100000) (k : Fin 64) :
    val_main_v48 (F := Ideal) x0 x1 x2 x3 (ix2 n k)
      = (0 + ∑ e ∈ inb x1 n, val_main_v17 (F := Ideal) x0 x2 (ix2 (src x1 e) k)
          * (val_main_v16 (F := Ideal) x1 (ix1 (src x1 e)) * val_main_v16 (F := Ideal) x1 (ix1 (tgc x1 e))))
        + x3 (ix1 k) := by
  rw [val_main_v48_apply, Ideal.addf_def, v47_apply, v45_apply]

/-! ## The two matrix products -/

/-- The first product at (m, k). -/
theorem hidden1_apply (m : Fin 100000) (k : Fin 64) :
    val_main_v17 (F := Ideal) x0 x2 (ix2 m k) = ∑ j : Fin 128, x0 (ix2 m j) * x2 (ix2 j k) := by
  rw [val_main_v17_apply]
  refine Finset.sum_congr rfl fun j _ => ?_
  have hl : lidx_main_v17 (ix2 m k) j = ix2 m j := by
    funext a
    match a with
    | ⟨0, _⟩ => rfl
    | ⟨1, _⟩ => rfl
  have hr : ridx_main_v17 (ix2 m k) j = ix2 j k := by
    funext a
    match a with
    | ⟨0, _⟩ => rfl
    | ⟨1, _⟩ => rfl
  rw [hl, hr]

/-- The rectifier: the maximum with the zero word. -/
theorem relu_apply (m : Fin 100000) (k : Fin 64) :
    val_main_v49 (F := Ideal) x0 x1 x2 x3 (ix2 m k) = max (val_main_v48 (F := Ideal) x0 x1 x2 x3 (ix2 m k)) 0 := by
  rw [val_main_v49_apply, Ideal.maximumf_def, val_main_call1_v0_apply, val_main_call1_cst_apply, Ideal.ofBits_def,
    Ideal.ofBits_zero_f32]

/-- The second product at (m, c). -/
theorem hidden2_apply (m : Fin 100000) (c : Fin 32) :
    val_main_v50 (F := Ideal) x0 x1 x2 x3 x4 (ix2 m c)
      = ∑ k : Fin 64, max (val_main_v48 (F := Ideal) x0 x1 x2 x3 (ix2 m k)) 0 * x4 (ix2 k c) := by
  rw [val_main_v50_apply]
  refine Finset.sum_congr rfl fun k _ => ?_
  have hl : lidx_main_v50 (ix2 m c) k = ix2 m k := by
    funext a
    match a with
    | ⟨0, _⟩ => rfl
    | ⟨1, _⟩ => rfl
  have hr : ridx_main_v50 (ix2 m c) k = ix2 k c := by
    funext a
    match a with
    | ⟨0, _⟩ => rfl
    | ⟨1, _⟩ => rfl
  rw [hl, hr, relu_apply]

end Cert.ReferenceIdeal.RefValue

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Layer1Array.lean ====
/-
  The first layer's output array as one function of the arrays its region finds.

  The region runs over 20 row blocks of 5000 rows. At each block the body forms, for the block's rows p and the 64
  output columns q, the product  (Σ_{k<128} x(p,k) · w(k,q)) · d(p,0)  of the block of x (5000×128), the whole
  weight matrix w (128×64) and the block of the column d (5000×1); at the extended reals a change of float format is
  the identity. Block t of every row-blocked array is rows 5000·t … 5000·t + 4999, and the 20 blocks cover all
  100000 rows, so after the region the output array is, at every index (n, c),
      layer1 x d w (n, c) = (Σ_{k<128} x(n,k) · w(k,c)) · d(n,0).
-/
import proofs.«143533_j48722109005962_2_alg».proof.Proof.Gen.KernelIdeal.Frame
import proofs.«143533_j48722109005962_2_alg».proof.Proof.LibPlainDot
import proofs.«143533_j48722109005962_2_alg».proof.Proof.LibColumn
import Idealize.ShloMosaic.Lib.Pipeline.Value
import Idealize.ShloMosaic.Lib.ValueIdx

noncomputable section

namespace Cert.KernelIdeal.Layers

open Cert.KernelIdeal Cert.KernelIdeal.Gen Idealize.ShloMosaic Idealize.ShloMosaic.TcCoe Idealize.SL.Sem
open Idealize.ShloMosaic.ValueIdx
open Idealize.ShloMosaic.Pipeline (Dat)

/-! ## The function -/

/-- The first layer, index by index: row n of x against column c of w, scaled by row n of the column d. -/
def layer1 (x : S100000x128.Idx → EReal) (d : S100000x1.Idx → EReal) (w : S128x64.Idx → EReal) : S100000x64.Idx → EReal :=
  fun i => (∑ k : Fin 128, x (ix2 (i 0) k) * w (ix2 k (i 1))) * d (ix2 (i 0) (0 : Fin 1))

theorem layer1_apply (x : S100000x128.Idx → EReal) (d : S100000x1.Idx → EReal) (w : S128x64.Idx → EReal)
    (n : Fin 100000) (c : Fin 64) :
    layer1 x d w (ix2 n c) = (∑ k : Fin 128, x (ix2 n k) * w (ix2 k c)) * d (ix2 n (0 : Fin 1)) := rfl

/-! ## The body's result at an index of a block -/

/-- The product's dimension numbers are those of a plain 5000×128 by 128×64 product. -/
theorem dot1_plain : dot_S5000x128_S128x64_S5000x64_1_0_0_1_n_n = DotDims.plain 5000 128 64 := rfl

/-- What the body stores at (p, q) of its block, from the blocks x0 of x, x1 of d and x2 of w. -/
theorem pay1_apply (x0 : Vec Ideal S5000x128 .f32) (x1 : Vec Ideal S5000x1 .f32) (x2 : Vec Ideal S128x64 .f32)
    (p : Fin 5000) (q : Fin 64) :
    Gen.k0_pay1 x0 x2 x1 (ix2 p q) = (∑ k : Fin 128, x0 (ix2 p k) * x2 (ix2 k q)) * x1 (ix2 p (0 : Fin 1)) := by
  unfold Gen.k0_pay1
  show (matmul (F := Ideal) dot_S5000x128_S128x64_S5000x64_1_0_0_1_n_n none (truncf .bf16 x0 bitsLt_bf16_f32)
      (truncf .bf16 x2 bitsLt_bf16_f32) (constant S5000x64 .f32 0x00000000#32)) (ix2 p q)
    * (broadcastTo S5000x64 (shapeCast S5000x1 x1 shapeCasts_S5000x1_S5000x1) broadcasts_S5000x1_S5000x64) (ix2 p q) = _
  rw [LibColumn.broadcastTo_a1_ab_apply, shapeCast_self, dot1_plain]
  exact congrArg (· * x1 (ix2 p (0 : Fin 1))) (LibPlainDot.matmul_plain 5000 128 64 none _ _ (ix2 p q))

/-! ## The index maps, decided over the grid -/

theorem zero_offsets : (![0, 0] : Fin 2 → Nat) = fun _ => 0 := funext fun a => by fin_cases a <;> rfl

/-- The grid has 20 points. -/
theorem points1 : cfg0.N = 20 := N_0

/-- At point t the blocks of x, d and the output are the t-th row blocks (column block 0); w's block is the whole
    matrix. -/
theorem idx_facts1 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t is row 5000·t + p of the array. -/
def row1 (t : Fin cfg0.N) (p : Fin 5000) : Fin 100000 :=
  ⟨t.val * 5000 + p.val, by have := t.isLt; have := p.isLt; have := points1; omega⟩

section Blocks

variable (V : (c : Dev nD) → (b : Ref sig .tc) → Buf (Elt Ideal) ((c : Thread nD τ).loc b)) (c : Dev nD)

/-! ## Each block read off its array -/

/-- The block of x at point t, at (p, k), is x at (5000·t + p, k). -/
theorem xblk1_apply (t : Fin cfg0.N) (p : Fin 5000) (k : Fin 128) :
    (Gen.iblk0 V c 0 t : Vec Ideal S5000x128 .f32) (ix2 p k)
      = (V c (Pipeline.arrRef spec0 0) : S100000x128.Idx → EReal) (ix2 (row1 t p) k) := by
  obtain ⟨e0, e1, -⟩ := idx_facts1 t
  show (V c (Pipeline.arrRef spec0 0) : S100000x128.Idx → EReal) (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The block of d at point t, at (p, 0), is d at (5000·t + p, 0). -/
theorem dblk1_apply (t : Fin cfg0.N) (p : Fin 5000) :
    (Gen.iblk0 V c 1 t : Vec Ideal S5000x1 .f32) (ix2 p (0 : Fin 1))
      = (V c (Pipeline.arrRef spec0 1) : S100000x1.Idx → EReal) (ix2 (row1 t p) (0 : Fin 1)) := by
  obtain ⟨-, -, e2, e3, -⟩ := idx_facts1 t
  show (V c (Pipeline.arrRef spec0 1) : S100000x1.Idx → EReal) (((cfg0.win 1).blk t).view.emb (ix2 p (0 : Fin 1))) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * 0 = 0; omega

/-- The block of w at every point is w. -/
theorem wblk1_apply (t : Fin cfg0.N) (k : Fin 128) (q : Fin 64) :
    (Gen.iblk0 V c 2 t : Vec Ideal S128x64 .f32) (ix2 k q)
      = (V c (Pipeline.arrRef spec0 2) : S128x64.Idx → EReal) (ix2 k q) := by
  obtain ⟨-, -, -, -, e4, e5, -⟩ := idx_facts1 t
  show (V c (Pipeline.arrRef spec0 2) : S128x64.Idx → EReal) (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 64 + 1 * q.val = q.val; omega

/-- Index (p, q) of the output's block at point t is index (5000·t + p, q) of the output array. -/
theorem oblk1_emb (t : Fin cfg0.N) (p : Fin 5000) (q : Fin 64) :
    ((cfg0.win 3).blk t).view.emb (ix2 p q) = (ix2 (row1 t p) q : S100000x64.Idx) := by
  obtain ⟨-, -, -, -, -, -, e6, e7⟩ := idx_facts1 t
  refine funext fun a => Fin.ext ?_
  match a with
  | ⟨0, _⟩ => show win0_3.index t (0 : Fin 2) * 5000 + 1 * p.val = t.val * 5000 + p.val; omega
  | ⟨1, _⟩ => show win0_3.index t (1 : Fin 2) * 64 + 1 * q.val = q.val; omega

/-! ## What each point writes back -/

/-- Point t writes back block t of `layer1` of the arrays the region finds. -/
theorem flushed1_eq (t : Fin cfg0.N) :
    (Gen.dat0 (F := Ideal) V c).flushed 3 t = ((cfg0.win 3).blk t).view.read (Elt Ideal)
      (layer1 (V c (Pipeline.arrRef spec0 0)) (V c (Pipeline.arrRef spec0 1)) (V c (Pipeline.arrRef spec0 2))) := by
  show (cfg0.win 3).cut (grid0.coords t) ((Gen.dat0 (F := Ideal) V c).after 3 t) = _
  rw [Gen.after0_3]
  unfold Gen.out0_3
  rw [View.canon_unit_zero zero_offsets]
  simp only [View.ld_unit_zero (S := S5000x128) zero_offsets, View.ld_unit_zero (S := S128x64) zero_offsets,
    View.ld_unit_zero (S := S5000x1) zero_offsets]
  funext j
  obtain ⟨p, q, rfl⟩ : ∃ (p : Fin 5000) (q : Fin 64), j = ix2 p q := ⟨j 0, j 1, eq_ix2 j⟩
  refine (pay1_apply (Gen.iblk0 V c 0 t) (Gen.iblk0 V c 1 t) (Gen.iblk0 V c 2 t) p q).trans ?_
  refine Eq.trans ?_ (congrArg (layer1 (V c (Pipeline.arrRef spec0 0)) (V c (Pipeline.arrRef spec0 1)) (V c (Pipeline.arrRef spec0 2)))
    (oblk1_emb t p q)).symm
  rw [layer1_apply, dblk1_apply V c t p]
  refine congrArg (· * _) (Finset.sum_congr rfl fun k _ => ?_)
  rw [xblk1_apply V c t p k, wblk1_apply V c t k q]

/-! ## The blocks cover the array -/

/-- An index of the output array is in point t's block iff each coordinate is in the block's range on its axis. -/
theorem mem_blk1 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v18).slice (win0_3.rect t)).set ↔ _
  rw [View.set_slice_whole, Rect.mem_set_unit]
  exact Iff.rfl

/-- Row r of the output array is in the block of point r / 5000, which writes back. -/
theorem cover1 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN := points1
  obtain ⟨t, ht⟩ : ∃ t : Fin cfg0.N, t.val = (i 0).val / 5000 := ⟨⟨(i 0).val / 5000, by omega⟩, rfl⟩
  obtain ⟨-, -, -, -, -, -, e6, e7⟩ := idx_facts1 t
  refine ⟨t, flush0_3 t, ?_⟩
  rw [mem_blk1]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-! ## The array after the region -/

/-- After the region the output array is `layer1` of the arrays the region found, at every index. -/
theorem layer1_array :
    (Gen.dat0 (F := Ideal) V c).arrAt 3 cfg0.N
      = layer1 (V c (Pipeline.arrRef spec0 0)) (V c (Pipeline.arrRef spec0 1)) (V c (Pipeline.arrRef spec0 2)) :=
  (Gen.dat0 (F := Ideal) V c).arrAt_eq_of_cover 3
    (layer1 (V c (Pipeline.arrRef spec0 0)) (V c (Pipeline.arrRef spec0 1)) (V c (Pipeline.arrRef spec0 2)))
    (fun t _ => flushed1_eq V c t) cover1

end Blocks

end Cert.KernelIdeal.Layers

end
-- ==== Proof.Layer2Array.lean ====
/-
  The second layer's output array as one function of the arrays its region finds.

  The region runs over 20 row blocks of 5000 rows. At each block the body forms, for the block's rows p, the hidden
  activation  h(p,k) = max(a(p,k) · d(p,0) + b(k), 0)  over the 64 hidden columns k (the bias b, a vector of length 64,
  read as a 1×64 row repeated along the rows; the zero a constant), and then, for the 32 output columns q,
  (Σ_{k<64} h(p,k) · w(k,q)) · d(p,0)  with the whole weight matrix w (64×32); at the extended reals a change of float
  format is the identity. Block t of every row-blocked array is rows 5000·t … 5000·t + 4999, and the 20 blocks cover
  all 100000 rows, so after the region the output array is, at every index (n, c),
      layer2 a d w b (n, c) = (Σ_{k<64} max(a(n,k) · d(n,0) + b(k), 0) · w(k,c)) · d(n,0).
-/
import proofs.«143533_j48722109005962_2_alg».proof.Proof.Gen.KernelIdeal.Frame
import proofs.«143533_j48722109005962_2_alg».proof.Proof.LibPlainDot
import proofs.«143533_j48722109005962_2_alg».proof.Proof.LibColumn
import Idealize.ShloMosaic.Lib.Pipeline.Value
import Idealize.ShloMosaic.Lib.ValueIdx
import Idealize.ShloMosaic.PureOps.Ideal.Laws

noncomputable section

namespace Cert.KernelIdeal.Layers

open Cert.KernelIdeal Cert.KernelIdeal.Gen Idealize.ShloMosaic Idealize.ShloMosaic.TcCoe Idealize.SL.Sem
open Idealize.ShloMosaic.ValueIdx
open Idealize.ShloMosaic.Pipeline (Dat)

/-! ## The function -/

/-- The second layer, index by index: the rectified, bias-shifted, d-scaled row n of a against column c of w, scaled by
    row n of the column d. -/
def layer2 (a : S100000x64.Idx → EReal) (d : S100000x1.Idx → EReal) (w : S64x32.Idx → EReal) (b : S64.Idx → EReal) :
    S100000x32.Idx → EReal :=
  fun i => (∑ k : Fin 64, max (a (ix2 (i 0) k) * d (ix2 (i 0) (0 : Fin 1)) + b (ix1 k)) 0 * w (ix2 k (i 1)))
    * d (ix2 (i 0) (0 : Fin 1))

theorem layer2_apply (a : S100000x64.Idx → EReal) (d : S100000x1.Idx → EReal) (w : S64x32.Idx → EReal) (b : S64.Idx → EReal)
    (n : Fin 100000) (c : Fin 32) :
    layer2 a d w b (ix2 n c)
      = (∑ k : Fin 64, max (a (ix2 n k) * d (ix2 n (0 : Fin 1)) + b (ix1 k)) 0 * w (ix2 k c)) * d (ix2 n (0 : Fin 1)) := rfl

/-! ## Two layout operations read at an index -/

/-- A vector of length b cast to a 1×b row reads, at (u, k), the vector at k, whatever the unit coordinate u. -/
theorem shapeCast_b_1b_apply {α : Type} {b : ℕ} (x : (⟨1, ![b]⟩ : Shape).Idx → α)
    (h : (⟨1, ![b]⟩ : Shape).ShapeCasts ⟨2, ![1, b]⟩) (u : Fin 1) (k : Fin b) :
    shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-- A 1×b row repeated along a rows by a broadcast reads, at (p, k), the row at (0, k). -/
theorem broadcastTo_1b_ab_apply {α : Type} {a b : ℕ} (v : (⟨2, ![1, b]⟩ : Shape).Idx → α)
    (h : (⟨2, ![1, b]⟩ : Shape).Broadcasts ⟨2, ![a, b]⟩) (p : Fin a) (k : Fin b) :
    broadcastTo ⟨2, ![a, b]⟩ v h (ix2 p k) = v (ix2 (0 : Fin 1) k) := by
  refine broadcastTo_apply v h (ix2 p k) (ix2 (0 : Fin 1) k) fun ax => ?_
  match ax with
  | ⟨0, _⟩ => rfl
  | ⟨1, _⟩ =>
    show k.val = if b = 1 then 0 else k.val
    split
    · have := k.isLt; omega
    · rfl

/-! ## The body's result at an index of a block -/

/-- The product's dimension numbers are those of a plain 5000×64 by 64×32 product. -/
theorem dot2_plain : dot_S5000x64_S64x32_S5000x32_1_0_0_1_n_n = DotDims.plain 5000 64 32 := rfl

/-- What the body stores at (p, q) of its block, from the blocks x0 of a, x1 of d (loaded twice: x1 and y1), x2 of w
    and x3 of b. -/
theorem pay2_apply (x0 : Vec Ideal S5000x64 .f32) (x1 y1 : Vec Ideal S5000x1 .f32) (x2 : Vec Ideal S64x32 .f32)
    (x3 : Vec Ideal S64 .f32) (p : Fin 5000) (q : Fin 32) :
    Gen.k1_pay1 x0 x1 x3 x2 y1 (ix2 p q)
      = (∑ k : Fin 64, max (x0 (ix2 p k) * x1 (ix2 p (0 : Fin 1)) + x3 (ix1 k)) 0 * x2 (ix2 k q)) * y1 (ix2 p (0 : Fin 1)) := by
  unfold Gen.k1_pay1
  simp only [shapeCast_self]
  rw [truncf_apply, mulf_apply, LibColumn.broadcastTo_a1_ab_apply, dot2_plain]
  refine congrArg (· * y1 (ix2 p (0 : Fin 1))) ?_
  refine (LibPlainDot.matmul_plain 5000 64 32 none _ _ (ix2 p q)).trans ?_
  refine Finset.sum_congr rfl fun k _ => ?_
  show max (x0 (ix2 p k) * (broadcastTo S5000x64 x1 broadcasts_S5000x1_S5000x64) (ix2 p k)
      + (broadcastTo S5000x64 (shapeCast S1x64 x3 shapeCasts_S64_S1x64) broadcasts_S1x64_S5000x64) (ix2 p k))
    (Ideal.ofBits .f32 0x00000000#32) * x2 (ix2 k q) = _
  rw [LibColumn.broadcastTo_a1_ab_apply, broadcastTo_1b_ab_apply, shapeCast_b_1b_apply, Ideal.ofBits_zero_f32]

/-! ## The index maps, decided over the grid -/

theorem zero_offsets2 : (![0, 0] : Fin 2 → Nat) = fun _ => 0 := funext fun a => by fin_cases a <;> rfl

theorem zero_offset1 : (![0] : Fin 1 → Nat) = fun _ => 0 := funext fun a => by fin_cases a; rfl

/-- The grid has 20 points. -/
theorem points2 : cfg1.N = 20 := N_1

/-- At point t the blocks of a, d and the output are the t-th row blocks (column block 0); w's block is the whole
    matrix and b's the whole vector. -/
theorem idx_facts2 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row p of block t is row 5000·t + p of the array. -/
def row2 (t : Fin cfg1.N) (p : Fin 5000) : Fin 100000 :=
  ⟨t.val * 5000 + p.val, by have := t.isLt; have := p.isLt; have := points2; omega⟩

section Blocks

variable (V : (c : Dev nD) → (b : Ref sig .tc) → Buf (Elt Ideal) ((c : Thread nD τ).loc b)) (c : Dev nD)

/-! ## Each block read off its array -/

/-- The block of a at point t, at (p, k), is a at (5000·t + p, k). -/
theorem ablk2_apply (t : Fin cfg1.N) (p : Fin 5000) (k : Fin 64) :
    (Gen.iblk1 V c 0 t : Vec Ideal S5000x64 .f32) (ix2 p k)
      = (V c (Pipeline.arrRef spec1 0) : S100000x64.Idx → EReal) (ix2 (row2 t p) k) := by
  obtain ⟨e0, e1, -⟩ := idx_facts2 t
  show (V c (Pipeline.arrRef spec1 0) : S100000x64.Idx → EReal) (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

/-- The block of d at point t, at (p, 0), is d at (5000·t + p, 0). -/
theorem dblk2_apply (t : Fin cfg1.N) (p : Fin 5000) :
    (Gen.iblk1 V c 1 t : Vec Ideal S5000x1 .f32) (ix2 p (0 : Fin 1))
      = (V c (Pipeline.arrRef spec1 1) : S100000x1.Idx → EReal) (ix2 (row2 t p) (0 : Fin 1)) := by
  obtain ⟨-, -, e2, e3, -⟩ := idx_facts2 t
  show (V c (Pipeline.arrRef spec1 1) : S100000x1.Idx → EReal) (((cfg1.win 1).blk t).view.emb (ix2 p (0 : Fin 1))) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega

/-- The block of w at every point is w. -/
theorem wblk2_apply (t : Fin cfg1.N) (k : Fin 64) (q : Fin 32) :
    (Gen.iblk1 V c 2 t : Vec Ideal S64x32 .f32) (ix2 k q)
      = (V c (Pipeline.arrRef spec1 2) : S64x32.Idx → EReal) (ix2 k q) := by
  obtain ⟨-, -, -, -, e4, e5, -⟩ := idx_facts2 t
  show (V c (Pipeline.arrRef spec1 2) : S64x32.Idx → EReal) (((cfg1.win 2).blk t).view.emb (ix2 k q)) = _
  refine congrArg _ (funext fun a => Fin.ext ?_)
  match a with
  | ⟨0, _⟩ => show win1_2.index t (0 : Fin 2) * 64 + 1 * k.val = k.val; omega
  | ⟨1, _⟩ => show win1_2.index t (1 : Fin 2) * 32 + 1 * q.val = q.val; omega

/-- The block of b at every point is b. -/
theorem bblk2_apply (t : Fin cfg1.N) (k : Fin 64) :
    (Gen.iblk1 V c 3 t : Vec Ideal S64 .f32) (ix1 k)
      = (V c (Pipeline.arrRef spec1 3) : S64.Idx → EReal) (ix1 k) := by
  obtain ⟨-, -, -, -, -, -, e6, -⟩ := idx_facts2 t
  show (V c (Pipeline.arrRef spec1 3) : S64.Idx → EReal) (((cfg1.win 3).blk t).view.emb (ix1 k)) = _
  refine congrArg _ (funext fun a => Fin.ext ?_)
  match a with
  | ⟨0, _⟩ => show win1_3.index t (0 : Fin 1) * 64 + 1 * k.val = k.val; omega

/-- Index (p, q) of the output's block at point t is index (5000·t + p, q) of the output array. -/
theorem oblk2_emb (t : Fin cfg1.N) (p : Fin 5000) (q : Fin 32) :
    ((cfg1.win 4).blk t).view.emb (ix2 p q) = (ix2 (row2 t p) q : S100000x32.Idx) := by
  obtain ⟨-, -, -, -, -, -, -, e7, e8⟩ := idx_facts2 t
  refine funext fun a => Fin.ext ?_
  match a with
  | ⟨0, _⟩ => show win1_4.index t (0 : Fin 2) * 5000 + 1 * p.val = t.val * 5000 + p.val; omega
  | ⟨1, _⟩ => show win1_4.index t (1 : Fin 2) * 32 + 1 * q.val = q.val; omega

/-! ## What each point writes back -/

/-- Point t writes back block t of `layer2` of the arrays the region finds. -/
theorem flushed2_eq (t : Fin cfg1.N) :
    (Gen.dat1 (F := Ideal) V c).flushed 4 t = ((cfg1.win 4).blk t).view.read (Elt Ideal)
      (layer2 (V c (Pipeline.arrRef spec1 0)) (V c (Pipeline.arrRef spec1 1)) (V c (Pipeline.arrRef spec1 2))
        (V c (Pipeline.arrRef spec1 3))) := by
  show (cfg1.win 4).cut (grid1.coords t) ((Gen.dat1 (F := Ideal) V c).after 4 t) = _
  rw [Gen.after1_4]
  unfold Gen.out1_4
  rw [View.canon_unit_zero zero_offsets2]
  simp only [View.ld_unit_zero (S := S5000x64) zero_offsets2, View.ld_unit_zero (S := S5000x1) zero_offsets2,
    View.ld_unit_zero (S := S64x32) zero_offsets2, View.ld_unit_zero (S := S64) zero_offset1]
  funext j
  obtain ⟨p, q, rfl⟩ : ∃ (p : Fin 5000) (q : Fin 32), j = ix2 p q := ⟨j 0, j 1, eq_ix2 j⟩
  refine (pay2_apply (Gen.iblk1 V c 0 t) (Gen.iblk1 V c 1 t) (Gen.iblk1 V c 1 t) (Gen.iblk1 V c 2 t) (Gen.iblk1 V c 3 t) p q).trans ?_
  refine Eq.trans ?_ (congrArg (layer2 (V c (Pipeline.arrRef spec1 0)) (V c (Pipeline.arrRef spec1 1))
    (V c (Pipeline.arrRef spec1 2)) (V c (Pipeline.arrRef spec1 3))) (oblk2_emb t p q)).symm
  rw [layer2_apply, dblk2_apply V c t p]
  refine congrArg (· * _) (Finset.sum_congr rfl fun k _ => ?_)
  rw [ablk2_apply V c t p k, wblk2_apply V c t k q, bblk2_apply V c t k]

/-! ## The blocks cover the array -/

/-- An index of the output array is in point t's block iff each coordinate is in the block's range on its axis. -/
theorem mem_blk2 (t : Fin cfg1.N) (i : S100000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v30).slice (win1_4.rect t)).set ↔ _
  rw [View.set_slice_whole, Rect.mem_set_unit]
  exact Iff.rfl

/-- Row r of the output array is in the block of point r / 5000, which writes back. -/
theorem cover2 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN := points2
  obtain ⟨t, ht⟩ : ∃ t : Fin cfg1.N, t.val = (i 0).val / 5000 := ⟨⟨(i 0).val / 5000, by omega⟩, rfl⟩
  obtain ⟨-, -, -, -, -, -, -, e7, e8⟩ := idx_facts2 t
  refine ⟨t, flush1_4 t, ?_⟩
  rw [mem_blk2]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 32 ≤ (i 1).val ∧ (i 1).val < win1_4.index t (1 : Fin 2) * 32 + 32
    omega

/-! ## The array after the region -/

/-- After the region the output array is `layer2` of the arrays the region found, at every index. -/
theorem layer2_array :
    (Gen.dat1 (F := Ideal) V c).arrAt 4 cfg1.N
      = layer2 (V c (Pipeline.arrRef spec1 0)) (V c (Pipeline.arrRef spec1 1)) (V c (Pipeline.arrRef spec1 2))
          (V c (Pipeline.arrRef spec1 3)) :=
  (Gen.dat1 (F := Ideal) V c).arrAt_eq_of_cover 4
    (layer2 (V c (Pipeline.arrRef spec1 0)) (V c (Pipeline.arrRef spec1 1)) (V c (Pipeline.arrRef spec1 2))
      (V c (Pipeline.arrRef spec1 3)))
    (fun t _ => flushed2_eq V c t) cover2

end Blocks

end Cert.KernelIdeal.Layers

end
-- ==== Proof.KernelHost.lean ====
/-
  The kernel program's buffer contents at its segment boundaries, read.

  Before the first kernel region the host builds the edge lists (sources `row`, targets `col`: the given edges followed
  by one self-loop per node), the degree factor `dis` (one over the square root of a node's in-degree) and writes it as
  a column. These are, operation for operation, the values the reference program computes for them, so they are stated
  here by the reference's own stage names.
  The first region leaves layer 1's scaled product in its output array; the host then looks its rows up at the edges'
  (wrapped, clamped) source nodes and adds them into zeros at the edges' targets; the second region leaves layer 2's
  scaled product of that aggregate; the host aggregates it the same way, scales each node's row by `dis` and adds the
  bias. Every other buffer a segment meets is as an earlier segment left it.
-/
import proofs.«143533_j48722109005962_2_alg».proof.Proof.Gen.KernelIdeal.Frame
import proofs.«143533_j48722109005962_2_alg».proof.Proof.RefRead
import proofs.«143533_j48722109005962_2_alg».proof.Proof.Layer1Array
import proofs.«143533_j48722109005962_2_alg».proof.Proof.Layer2Array
import proofs.«143533_j48722109005962_2_alg».proof.Proof.LibColumn
import Idealize.ShloMosaic.Lib.IdealHost

set_option maxRecDepth 16384

noncomputable section

-- nested under the generated modules' namespace so that their short names resolve to them first
namespace Cert.KernelIdeal.Gen.KHost

open Idealize.ShloMosaic Idealize.ShloMosaic.TcCoe Idealize.SL.Sem Idealize.ShloMosaic.StableHlo Idealize.ShloMosaic.ValueIdx
open Cert.ReferenceIdeal (ReadP.val_main_v3 ReadP.val_main_v6 ReadP.val_main_v16 ReadP.val_main_v22 RefValue.inb RefValue.src RefValue.node)
open Cert.KernelIdeal.Layers (layer1 layer2)

variable (m : (ℓ : Loc nD τ sig) → Buf (Elt Ideal) ℓ) (ρ : Dev nD → PrngReg) (c : Dev nD)

/-! ## At the first region's entry -/

/-- The sources' list is the reference's. -/
theorem W3_row : W3 m ρ c (Proc.devRef .tc main_v5) = ReadP.val_main_v3 (F := Ideal) (m ((c : Thread nD τ).loc main_arg1)) := by
  dsimp only [W3, W2, W1, W0, hostOps0, hostOps0_1, hostOps0_2]
  after_results
  rfl

/-- The targets' list is the reference's. -/
theorem W3_col : W3 m ρ c (Proc.devRef .tc main_v6) = ReadP.val_main_v6 (F := Ideal) (m ((c : Thread nD τ).loc main_arg1)) := by
  dsimp only [W3, W2, W1, W0, hostOps0, hostOps0_1, hostOps0_2]
  after_results
  rfl

/-- The comparison of the in-degree against zero is the reference's. -/
theorem W1_v12 : W1 m ρ c (Proc.devRef .tc main_v12) = Cert.ReferenceIdeal.ReadP.val_main_v12 (F := Ideal) (m ((c : Thread nD τ).loc main_arg1)) := by
  dsimp only [W1, W0, hostOps0]
  after_results
  rfl

/-- One over the square root of the in-degree (raised to at least one) is the reference's. -/
theorem W1_v15 : W1 m ρ c (Proc.devRef .tc main_v15) = Cert.ReferenceIdeal.ReadP.val_main_v15 (F := Ideal) (m ((c : Thread nD τ).loc main_arg1)) := by
  dsimp only [W1, W0, hostOps0]
  after_results
  rfl

/-- The zero the factor takes at a node of in-degree zero. -/
theorem W1_cst3 : W1 m ρ c (Proc.devRef .tc main_cst_3) = Cert.ReferenceIdeal.ReadP.val_main_cst_3 (F := Ideal) := by
  dsimp only [W1, W0, hostOps0]
  after_results
  rfl

/-- The degree factor as the selection's stretch computes it from what it finds: the comparison's bit selects between
    the inverse square root and the zero, spread over the nodes. -/
theorem W2_v16_sel : W2 m ρ c (Proc.devRef .tc main_v16)
    = select (W1 m ρ c (Proc.devRef .tc main_v12)) (W1 m ρ c (Proc.devRef .tc main_v15))
        (broadcastInDim S100000 ![] bcast_S_S100000 (id (W1 m ρ c (Proc.devRef .tc main_cst_3)))) := by
  dsimp only [W2]
  generalize W1 m ρ c = V1
  dsimp only [hostOps0_1]
  after_results
  rfl

/-- The degree factor is the reference's: the same selection between the same two values. -/
theorem W2_v16 : W2 m ρ c (Proc.devRef .tc main_v16) = ReadP.val_main_v16 (F := Ideal) (m ((c : Thread nD τ).loc main_arg1)) := by
  rw [W2_v16_sel, W1_v12, W1_v15, W1_cst3]
  unfold Cert.ReferenceIdeal.ReadP.val_main_v16 Cert.ReferenceIdeal.ReadP.val_main_call0_v1 Cert.ReferenceIdeal.ReadP.val_main_call0_v0
  rfl

/-- The degree factor's column is the degree factor written as a column. -/
theorem W3_deg_cast : W3 m ρ c (Proc.devRef .tc main_v17)
    = shapeCast S100000x1 (W2 m ρ c (Proc.devRef .tc main_v16)) shapeCasts_S100000_S100000x1 := by
  dsimp only [W3]
  generalize W2 m ρ c = V2
  dsimp only [hostOps0_2]
  after_results
  rfl

/-- The degree factor's column is the reference's degree factor, written as a column. -/
theorem W3_deg : W3 m ρ c (Proc.devRef .tc main_v17)
    = shapeCast S100000x1 (ReadP.val_main_v16 (F := Ideal) (m ((c : Thread nD τ).loc main_arg1))) shapeCasts_S100000_S100000x1 := by
  rw [W3_deg_cast, W2_v16]

/-- No host operation before the first region writes an argument. -/
theorem W3_arg0 : W3 m ρ c (Proc.devRef .tc main_arg0) = m ((c : Thread nD τ).loc main_arg0) := by
  dsimp only [W3, W2, W1, W0, hostOps0, hostOps0_1, hostOps0_2]
  after_results
  first | rfl | skip
theorem W3_arg2 : W3 m ρ c (Proc.devRef .tc main_arg2) = m ((c : Thread nD τ).loc main_arg2) := by
  dsimp only [W3, W2, W1, W0, hostOps0, hostOps0_1, hostOps0_2]
  after_results
  first | rfl | skip
theorem W3_arg3 : W3 m ρ c (Proc.devRef .tc main_arg3) = m ((c : Thread nD τ).loc main_arg3) := by
  dsimp only [W3, W2, W1, W0, hostOps0, hostOps0_1, hostOps0_2]
  after_results
  first | rfl | skip
theorem W3_arg4 : W3 m ρ c (Proc.devRef .tc main_arg4) = m ((c : Thread nD τ).loc main_arg4) := by
  dsimp only [W3, W2, W1, W0, hostOps0, hostOps0_1, hostOps0_2]
  after_results
  first | rfl | skip
theorem W3_arg5 : W3 m ρ c (Proc.devRef .tc main_arg5) = m ((c : Thread nD τ).loc main_arg5) := by
  dsimp only [W3, W2, W1, W0, hostOps0, hostOps0_1, hostOps0_2]
  after_results
  first | rfl | skip

/-! ## The five buffers read below, as arrays of extended reals -/

/-- The degree factor's column `[100000, 1]`, as both regions find it. -/
def dk : S100000x1.Idx → EReal := W3 m ρ c (Proc.devRef .tc main_v17)
/-- The first region's output array `[100000, 64]`. -/
def y1 : S100000x64.Idx → EReal := W4 m ρ c (Proc.devRef .tc main_v18)
/-- The first aggregate `[100000, 64]`, as the second region finds it. -/
def a1 : S100000x64.Idx → EReal := W5 m ρ c (Proc.devRef .tc main_v29)
/-- The second region's output array `[100000, 32]`. -/
def y2 : S100000x32.Idx → EReal := W6 m ρ c (Proc.devRef .tc main_v30)
/-- The result `[100000, 32]`. -/
def out : S100000x32.Idx → EReal := W7 m ρ c (Proc.devRef .tc main_v46)
/-- The second bias `[32]`, an argument. -/
def b2 : S32.Idx → EReal := m ((c : Thread nD τ).loc main_arg5)

/-! ## At the first region's exit -/

/-- The first region's three input arrays are the node matrix, the degree column and the first weight matrix. -/
theorem V3_0 : (V3 m ρ c (Pipeline.arrRef spec0 0) : S100000x128.Idx → EReal) = W3 m ρ c (Proc.devRef .tc main_arg0) := rfl
theorem V3_1 : (V3 m ρ c (Pipeline.arrRef spec0 1) : S100000x1.Idx → EReal) = W3 m ρ c (Proc.devRef .tc main_v17) := rfl
theorem V3_2 : (V3 m ρ c (Pipeline.arrRef spec0 2) : S128x64.Idx → EReal) = W3 m ρ c (Proc.devRef .tc main_arg2) := rfl

/-- The first region's output array: layer 1's product, each row scaled by the node's degree factor. -/
theorem y1_eq : y1 m ρ c
    = layer1 (m ((c : Thread nD τ).loc main_arg0)) (dk m ρ c) (m ((c : Thread nD τ).loc main_arg2)) := by
  unfold y1 dk
  refine (W4_arr m ρ c 3).trans ((Cert.KernelIdeal.Layers.layer1_array (V3 m ρ) c).trans ?_)
  rw [V3_0, V3_1, V3_2, W3_arg0, W3_arg2]

theorem W4_row : W4 m ρ c (Proc.devRef .tc main_v5) = ReadP.val_main_v3 (F := Ideal) (m ((c : Thread nD τ).loc main_arg1)) :=
  (W4_of_ne m ρ c main_v5 (by decide)).trans (W3_row m ρ c)
theorem W4_col : W4 m ρ c (Proc.devRef .tc main_v6) = ReadP.val_main_v6 (F := Ideal) (m ((c : Thread nD τ).loc main_arg1)) :=
  (W4_of_ne m ρ c main_v6 (by decide)).trans (W3_col m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
/-- The degree column is an input of the first region: its array is as entered. -/
theorem W4_deg : W4 m ρ c (Proc.devRef .tc main_v17) = W3 m ρ c (Proc.devRef .tc main_v17) :=
  (W4_arr m ρ c 1).trans (((dat0 (V3 m ρ) c).arrAt_in 1 rfl _).trans (A_eq0 (V3 m ρ) c 1))

/-! ## At the second region's entry: the first aggregation's stretch writes none of these -/

theorem W5_row : W5 m ρ c (Proc.devRef .tc main_v5) = W4 m ρ c (Proc.devRef .tc main_v5) := by
  dsimp only [W5]; generalize W4 m ρ c = U; dsimp only [hostOps1]; after_results; first | rfl | skip
theorem W5_col : W5 m ρ c (Proc.devRef .tc main_v6) = W4 m ρ c (Proc.devRef .tc main_v6) := by
  dsimp only [W5]; generalize W4 m ρ c = U; dsimp only [hostOps1]; after_results; first | rfl | skip
theorem W5_deg : W5 m ρ c (Proc.devRef .tc main_v17) = W4 m ρ c (Proc.devRef .tc main_v17) := by
  dsimp only [W5]; generalize W4 m ρ c = U; dsimp only [hostOps1]; after_results; first | rfl | skip
theorem W5_arg3 : W5 m ρ c (Proc.devRef .tc main_arg3) = W4 m ρ c (Proc.devRef .tc main_arg3) := by
  dsimp only [W5]; generalize W4 m ρ c = U; dsimp only [hostOps1]; after_results; first | rfl | skip
theorem W5_arg4 : W5 m ρ c (Proc.devRef .tc main_arg4) = W4 m ρ c (Proc.devRef .tc main_arg4) := by
  dsimp only [W5]; generalize W4 m ρ c = U; dsimp only [hostOps1]; after_results; first | rfl | skip
theorem W5_arg5 : W5 m ρ c (Proc.devRef .tc main_arg5) = W4 m ρ c (Proc.devRef .tc main_arg5) := by
  dsimp only [W5]; generalize W4 m ρ c = U; dsimp only [hostOps1]; after_results; first | rfl | skip

/-! ## The first aggregation -/

/-- The aggregate of layer 1 at node `n`, column `k`: zero plus the sum, over the edges into `n`, of the first
    region's array at the edge's source node. (The rows are looked up at the wrapped, clamped source index, widened from
    the narrow format — the identity on the values — and added into zeros at the targets.) -/
theorem a1_apply (n : Fin 100000) (k : Fin 64) :
    a1 m ρ c (ix2 n k)
      = 0 + ∑ e ∈ RefValue.inb (m ((c : Thread nD τ).loc main_arg1)) n,
          y1 m ρ c (ix2 (RefValue.src (m ((c : Thread nD τ).loc main_arg1)) e) k) := by
  have hrow := W4_row m ρ c
  have hcol := W4_col m ρ c
  unfold a1 y1
  dsimp only [W5]
  generalize W4 m ρ c = U at hrow hcol ⊢
  dsimp only [hostOps1]
  after_results
  rw [hrow, hcol]
  refine (Cert.ReferenceIdeal.RefValue.scatter_rows_apply scatter_S100000x64_S1700000x1_S1700000x64_1_0_0_1_wf
    bcast_S_S100000x64 _ _ _ n k).trans ?_
  refine congrArg₂ (· + ·) Ideal.ofBits_zero_f32 (Finset.sum_congr rfl fun e _ => ?_)
  rw [extf_apply]
  exact Cert.ReferenceIdeal.RefValue.gather_rows_apply gather_S100000x64_S1700000x1_S1700000x64_1_0_n_n_0_1_164_wf _ _ e k

/-! ## At the second region's exit -/

/-- The second region's four input arrays are the first aggregate, the degree column, the second weight matrix and the
    first bias. -/
theorem V5_0 : (V5 m ρ c (Pipeline.arrRef spec1 0) : S100000x64.Idx → EReal) = W5 m ρ c (Proc.devRef .tc main_v29) := rfl
theorem V5_1 : (V5 m ρ c (Pipeline.arrRef spec1 1) : S100000x1.Idx → EReal) = W5 m ρ c (Proc.devRef .tc main_v17) := rfl
theorem V5_2 : (V5 m ρ c (Pipeline.arrRef spec1 2) : S64x32.Idx → EReal) = W5 m ρ c (Proc.devRef .tc main_arg4) := rfl
theorem V5_3 : (V5 m ρ c (Pipeline.arrRef spec1 3) : S64.Idx → EReal) = W5 m ρ c (Proc.devRef .tc main_arg3) := rfl

/-- The second region's output array: layer 2's product of the rectified, biased, scaled aggregate, each row scaled by the
    node's degree factor. -/
theorem y2_eq : y2 m ρ c
    = layer2 (a1 m ρ c) (dk m ρ c) (m ((c : Thread nD τ).loc main_arg4)) (m ((c : Thread nD τ).loc main_arg3)) := by
  unfold y2 a1 dk
  refine (W6_arr m ρ c 4).trans ((Cert.KernelIdeal.Layers.layer2_array (V5 m ρ) c).trans ?_)
  rw [V5_0, V5_1, V5_2, V5_3, W5_deg, W4_deg, W5_arg4, W4_arg4, W5_arg3, W4_arg3]

theorem W6_row : W6 m ρ c (Proc.devRef .tc main_v5) = ReadP.val_main_v3 (F := Ideal) (m ((c : Thread nD τ).loc main_arg1)) :=
  (W6_of_ne m ρ c main_v5 (by decide)).trans ((W5_row m ρ c).trans (W4_row m ρ c))
theorem W6_col : W6 m ρ c (Proc.devRef .tc main_v6) = ReadP.val_main_v6 (F := Ideal) (m ((c : Thread nD τ).loc main_arg1)) :=
  (W6_of_ne m ρ c main_v6 (by decide)).trans ((W5_col m ρ c).trans (W4_col m ρ c))
theorem W6_arg5 : W6 m ρ c (Proc.devRef .tc main_arg5) = m ((c : Thread nD τ).loc main_arg5) :=
  (W6_of_ne m ρ c main_arg5 (by decide)).trans ((W5_arg5 m ρ c).trans (W4_arg5 m ρ c))
/-- The degree column is an input of the second region too: its array is as the first region found it. -/
theorem W6_deg : W6 m ρ c (Proc.devRef .tc main_v17) = dk m ρ c :=
  ((W6_arr m ρ c 1).trans (((dat1 (V5 m ρ) c).arrAt_in 1 rfl _).trans (A_eq1 (V5 m ρ) c 1))).trans
    ((W5_deg m ρ c).trans (W4_deg m ρ c))

/-! ## The result -/

set_option maxHeartbeats 2000000 in
/-- The result at node `n`, column `k`: the node's degree factor times the aggregate of layer 2 (zero plus the sum, over
    the edges into `n`, of the second region's array at the edge's source node), plus the bias. -/
theorem out_apply (n : Fin 100000) (k : Fin 32) :
    out m ρ c (ix2 n k)
      = dk m ρ c (ix2 n (0 : Fin 1))
          * (0 + ∑ e ∈ RefValue.inb (m ((c : Thread nD τ).loc main_arg1)) n,
              y2 m ρ c (ix2 (RefValue.src (m ((c : Thread nD τ).loc main_arg1)) e) k))
        + b2 m c (ix1 k) := by
  have hrow := W6_row m ρ c
  have hcol := W6_col m ρ c
  have hb := W6_arg5 m ρ c
  have hd := W6_deg m ρ c
  unfold out y2 b2
  dsimp only [W7]
  generalize W6 m ρ c = U at hrow hcol hb hd ⊢
  dsimp only [hostOps2]
  after_results
  rw [hrow, hcol, hb, hd, addf_apply, mulf_apply]
  refine congrArg₂ (· + ·) (congrArg₂ (· * ·) ?_ ?_) ?_
  · exact Cert.LibHostBroadcast.col_to_mat _ bcast_S100000x1_S100000x32_0_1 n k
  · refine (Cert.ReferenceIdeal.RefValue.scatter_rows_apply scatter_S100000x32_S1700000x1_S1700000x32_1_0_0_1_wf
      bcast_S_S100000x32 _ _ _ n k).trans ?_
    refine congrArg₂ (· + ·) Ideal.ofBits_zero_f32 (Finset.sum_congr rfl fun e _ => ?_)
    rw [extf_apply]
    exact Cert.ReferenceIdeal.RefValue.gather_rows_apply gather_S100000x32_S1700000x1_S1700000x32_1_0_n_n_0_1_132_wf _ _ e k
  · exact Cert.LibHostBroadcast.vec_along_cols _ bcast_S32_S1x32_1 bcast_S1x32_S100000x32_0_1 n k

/-- The degree column at node `n` is the reference's degree factor at `n`. -/
theorem dk_apply (n : Fin 100000) :
    dk m ρ c (ix2 n (0 : Fin 1)) = ReadP.val_main_v16 (F := Ideal) (m ((c : Thread nD τ).loc main_arg1)) (ix1 n) := by
  unfold dk
  rw [W3_deg]
  exact Cert.LibColumn.shapeCast_a_a1_apply _ _ n 0

end Cert.KernelIdeal.Gen.KHost

end
-- ==== Proof.LibGraphSum.lean ====
/-
  Sums over the edges into a node, on the extended reals.

  * A factor `D` with `0 ≤ D` and `D ≠ ⊤` distributes over any finite sum of extended reals — infinite summands of both
    signs included: multiplying by such a factor keeps every sign, so no `⊤ + ⊥` is created or destroyed.
  * Hence a sum of messages `h e · (d e · D' e)` whose second weight `D' e` is one and the same `D` for every edge of the sum
    is the sum of the messages `h e · d e`, times `D`: the normalisation by the target's degree may be applied per edge or
    once per node.
  * `1/√(max x 1)` is such a factor for EVERY extended real `x` (it is `0` at `x = ⊤`, and `(√r)⁻¹` with `r ≥ 1` otherwise).
-/
import Mathlib.Data.EReal.Operations
import Mathlib.Data.EReal.Inv
import Idealize.ShloMosaic.PureOps.Ideal

open scoped BigOperators
open Idealize.ShloMosaic

noncomputable section

namespace Cert.LibGraphSum

/-- A nonnegative factor other than `⊤` distributes over a finite sum of extended reals. -/
theorem sum_mul_of_nonneg_of_ne_top {ι : Type*} (S : Finset ι) (f : ι → EReal) {D : EReal} (h0 : 0 ≤ D) (ht : D ≠ ⊤) :
    (∑ e ∈ S, f e) * D = ∑ e ∈ S, f e * D := by
  classical
  refine Finset.induction_on S (by simp) (fun a S ha ih => ?_)
  rw [Finset.sum_insert ha, Finset.sum_insert ha, EReal.right_distrib_of_nonneg_of_ne_top h0 ht, ih]

/-- Messages weighted per edge by `d e · D' e`, the second weight being the same `D` on every edge of the sum: the sum is
    the sum of the messages weighted by `d e` alone, times `D`. (Both sums start from `0`, as a scatter into zeros does.) -/
theorem weighted_sum_factor {ι : Type*} (S : Finset ι) (h d D' : ι → EReal) {D : EReal} (h0 : 0 ≤ D) (ht : D ≠ ⊤)
    (hD : ∀ e ∈ S, D' e = D) :
    0 + ∑ e ∈ S, h e * (d e * D' e) = (0 + ∑ e ∈ S, h e * d e) * D := by
  rw [zero_add, zero_add, sum_mul_of_nonneg_of_ne_top S _ h0 ht]
  refine Finset.sum_congr rfl fun e he => ?_
  rw [hD e he, mul_assoc]

/-- `1/√r` of a real `r ≥ 1` is a nonnegative real. -/
theorem rsqrt_coe_of_one_le (r : ℝ) (hr : 1 ≤ r) :
    0 ≤ Ideal.rsqrt ((r : ℝ) : EReal) ∧ Ideal.rsqrt ((r : ℝ) : EReal) ≠ ⊤ := by
  have hr0 : ¬ r < 0 := by linarith
  have hr1 : ¬ r = 0 := fun h => by rw [h] at hr; norm_num at hr
  rw [Ideal.rsqrt_coe, if_neg hr0, if_neg hr1]
  exact ⟨EReal.coe_nonneg.mpr (inv_nonneg.mpr (Real.sqrt_nonneg r)), EReal.coe_ne_top _⟩

/-- `1/√(max x 1)` is nonnegative and not `⊤`, whatever the extended real `x`. -/
theorem rsqrt_max_one (x : EReal) : 0 ≤ Ideal.rsqrt (max x 1) ∧ Ideal.rsqrt (max x 1) ≠ ⊤ := by
  induction x using EReal.rec with
  | bot =>
    rw [max_eq_right bot_le, ← EReal.coe_one]
    exact rsqrt_coe_of_one_le 1 le_rfl
  | coe r =>
    rcases le_total ((r : ℝ) : EReal) 1 with h | h
    · rw [max_eq_right h, ← EReal.coe_one]
      exact rsqrt_coe_of_one_le 1 le_rfl
    · rw [max_eq_left h]
      exact rsqrt_coe_of_one_le r (by exact_mod_cast h)
  | top =>
    rw [max_eq_left le_top, Ideal.rsqrt_top]
    exact ⟨le_rfl, EReal.zero_ne_top⟩

end Cert.LibGraphSum

end
-- ==== Proof.DegreeFacts.lean ====
/-
  Two facts about the reference's graph bookkeeping, at the extended reals.

  * The degree factor of a node — 1/√(max deg 1) where the node's degree is positive, the constant 0 elsewhere — is
    nonnegative and is not ⊤, whatever the degree.
  * A target index that reads, as a signed integer, as a node s (so it is not negative) is left alone by the
    negative-index wrap (index + 100000 where index < 0), and, clamped into the node range, reads s.
-/
import proofs.«143533_j48722109005962_2_alg».proof.Proof.RefReadP
import proofs.«143533_j48722109005962_2_alg».proof.Proof.LibGraphSum
import Idealize.ShloMosaic.Lib.ValueIdx
import Idealize.ShloMosaic.Lib.IdealHost
import Idealize.ShloMosaic.PureOps.Ideal.Laws

noncomputable section

namespace Cert.ReferenceIdeal.DegreeFacts

open Cert.ReferenceIdeal Cert.ReferenceIdeal.ReadP Idealize.ShloMosaic Idealize.ShloMosaic.ValueIdx

/-- The degree factor of every node is nonnegative and finite from above. -/
theorem dis_nonneg_ne_top (x1 : (⟨S2x1600000, .i32⟩ : BufTy).Contents (Elt Ideal)) (n : Fin 100000) :
    0 ≤ val_main_v16 (F := Ideal) x1 (ix1 n) ∧ val_main_v16 (F := Ideal) x1 (ix1 n) ≠ ⊤ := by
  rw [val_main_v16_apply]
  unfold Scalar.select
  split
  · rw [val_main_v15_apply, Ideal.hostUnary_rsqrt_def, val_main_v14_apply, Ideal.maximumf_def, val_main_v13_apply,
      val_main_cst_2_apply]
    show 0 ≤ Ideal.rsqrt (max (val_main_v10 (F := Ideal) x1 (ix1 n)) (Ideal.ofBits .f32 0x3F800000#32))
      ∧ Ideal.rsqrt (max (val_main_v10 (F := Ideal) x1 (ix1 n)) (Ideal.ofBits .f32 0x3F800000#32)) ≠ ⊤
    rw [Ideal.ofBits_one_f32]
    exact Cert.LibGraphSum.rsqrt_max_one _
  · rw [val_main_call0_v1_apply, val_main_call0_v0_apply, val_main_cst_3_apply]
    show 0 ≤ Ideal.ofBits .f32 0x00000000#32 ∧ Ideal.ofBits .f32 0x00000000#32 ≠ ⊤
    rw [Ideal.ofBits_zero_f32]
    exact ⟨le_rfl, EReal.zero_ne_top⟩

/-- A target index that is not negative is not wrapped. -/
theorem wrap_cond_of_nonneg (x1 : (⟨S2x1600000, .i32⟩ : BufTy).Contents (Elt Ideal)) (e : Fin 1700000)
    (h : 0 ≤ (val_main_v6 (F := Ideal) x1 (ix1 e)).toInt) : val_main_v26 (F := Ideal) x1 (ix1 e) = 0#1 := by
  rw [val_main_v26_apply, val_main_v25_apply, val_main_c_5_apply]
  unfold IntOp.cmpi
  show BitVec.ofBool ((val_main_v6 (F := Ideal) x1 (ix1 e)).slt 0#32) = 0#1
  have hs : (val_main_v6 (F := Ideal) x1 (ix1 e)).slt 0#32 = false := by
    rw [BitVec.slt_eq_decide, BitVec.toInt_zero]
    exact decide_eq_false (not_lt.mpr h)
  rw [hs]
  rfl

/-- A target index that reads as the node s is, after the wrap and the clamp into the node range, s. -/
theorem target_of_mem (x1 : (⟨S2x1600000, .i32⟩ : BufTy).Contents (Elt Ideal)) (e : Fin 1700000) (s : Fin 100000)
    (h : (val_main_v6 (F := Ideal) x1 (ix1 e)).toInt = (s.val : Int)) :
    min (val_main_v29 (F := Ideal) x1 (ix1 e)).toInt.toNat (100000 - 1) = s.val := by
  rw [val_main_v29_apply, wrap_cond_of_nonneg x1 e (by rw [h]; exact Int.natCast_nonneg _), select_zero, h]
  have := s.isLt
  rw [Int.toNat_natCast]
  omega

end Cert.ReferenceIdeal.DegreeFacts

end
-- ==== Proof.LayersAgree.lean ====
/-
  The two blocked layers, summed over each node's incoming edges, agree with the reference's two graph-convolution
  layers, entry by entry, at the extended reals.

  Write D s for the degree factor of node s (nonnegative, never ⊤), H1 = x W1 and H2 = max(pre1, 0) W2 for the
  reference's two matrix products, and inb s for the edges whose target is s; on those edges the clamped target node
  is s itself. The blocked first layer is H1(t,k) · D t, so its sum over the edges into s is
  Σ_e H1(src e, k) · D(src e), and the reference's
      pre1(s,k) = (0 + Σ_{e ∈ inb s} H1(src e,k) · (D(src e) · D(tgc e))) + b1 k
                = (0 + Σ_{e ∈ inb s} H1(src e,k) · D(src e)) · D s + b1 k
  because the factor D s, the same on every edge of the sum, nonnegative and not ⊤, distributes over the sum whatever
  the summands' signs and infinities. Hence the blocked second layer is H2(s,c) · D s, and the same step once more
  gives the reference's result  (0 + Σ_{e ∈ inb n} H2(src e,c) · (D(src e) · D(tgc e))) + b2 c
  as  D n · (0 + Σ_{e ∈ inb n} layer2(src e, c)) + b2 c.  No finiteness of the inputs is used.
-/
import proofs.«143533_j48722109005962_2_alg».proof.Proof.RefRead
import proofs.«143533_j48722109005962_2_alg».proof.Proof.DegreeFacts
import proofs.«143533_j48722109005962_2_alg».proof.Proof.LibGraphSum
import proofs.«143533_j48722109005962_2_alg».proof.Proof.Layer1Array
import proofs.«143533_j48722109005962_2_alg».proof.Proof.Layer2Array

noncomputable section

namespace Cert.LayersAgree

open Cert.ReferenceIdeal Cert.ReferenceIdeal.ReadP Cert.ReferenceIdeal.RefValue Cert.ReferenceIdeal.DegreeFacts
open Cert.KernelIdeal.Layers Idealize.ShloMosaic Idealize.ShloMosaic.ValueIdx

variable (x0 : (⟨S100000x128, .f32⟩ : BufTy).Contents (Elt Ideal))
  (x1 : (⟨S2x1600000, .i32⟩ : BufTy).Contents (Elt Ideal))
  (x2 : (⟨S128x64, .f32⟩ : BufTy).Contents (Elt Ideal))
  (x3 : (⟨S64, .f32⟩ : BufTy).Contents (Elt Ideal))
  (x4 : (⟨S64x32, .f32⟩ : BufTy).Contents (Elt Ideal))
  (x5 : (⟨S32, .f32⟩ : BufTy).Contents (Elt Ideal))

/-- On an edge into s the clamped target node is s. -/
theorem tgc_of_mem {s : Fin 100000} {e : Fin 1700000} (he : e ∈ inb x1 s) : tgc x1 e = s :=
  Fin.ext (target_of_mem x1 e s (Finset.mem_filter.mp he).2)

/-- A sum over the edges into s weighted per edge by D(src e) · D(tgc e) is the sum weighted by D(src e), times D s. -/
theorem edge_sum_factor (h : Fin 1700000 → EReal) (s : Fin 100000) :
    0 + ∑ e ∈ inb x1 s, h e * (val_main_v16 (F := Ideal) x1 (ix1 (src x1 e)) * val_main_v16 (F := Ideal) x1 (ix1 (tgc x1 e)))
      = (0 + ∑ e ∈ inb x1 s, h e * val_main_v16 (F := Ideal) x1 (ix1 (src x1 e))) * val_main_v16 (F := Ideal) x1 (ix1 s) :=
  Cert.LibGraphSum.weighted_sum_factor (inb x1 s) h (fun e => val_main_v16 (F := Ideal) x1 (ix1 (src x1 e)))
    (fun e => val_main_v16 (F := Ideal) x1 (ix1 (tgc x1 e))) (dis_nonneg_ne_top x1 s).1 (dis_nonneg_ne_top x1 s).2
    (fun e he => by rw [tgc_of_mem x1 he])

section Blocked

variable (dk : Cert.KernelIdeal.S100000x1.Idx → EReal)
  (hdk : ∀ n : Fin 100000, dk (ix2 n (0 : Fin 1)) = val_main_v16 (F := Ideal) x1 (ix1 n))
include hdk

/-- The blocked first layer at (t, k) is the first product there times D t. -/
theorem layer1_eq (t : Fin 100000) (k : Fin 64) :
    layer1 x0 dk x2 (ix2 t k) = val_main_v17 (F := Ideal) x0 x2 (ix2 t k) * val_main_v16 (F := Ideal) x1 (ix1 t) := by
  rw [layer1_apply, hdk, hidden1_apply]

variable (A1 : Cert.KernelIdeal.S100000x64.Idx → EReal)
  (hA1 : ∀ (s : Fin 100000) (k : Fin 64), A1 (ix2 s k) = 0 + ∑ e ∈ inb x1 s, layer1 x0 dk x2 (ix2 (src x1 e) k))
include hA1

/-- The reference's first layer before the rectifier is the summed blocked first layer times D s, plus the bias. -/
theorem pre1_eq (s : Fin 100000) (k : Fin 64) :
    val_main_v48 (F := Ideal) x0 x1 x2 x3 (ix2 s k) = A1 (ix2 s k) * dk (ix2 s (0 : Fin 1)) + x3 (ix1 k) := by
  rw [pre1_apply, edge_sum_factor x1 (fun e => val_main_v17 (F := Ideal) x0 x2 (ix2 (src x1 e) k)) s, hA1, hdk]
  refine congrArg (fun z => (0 + z) * val_main_v16 (F := Ideal) x1 (ix1 s) + x3 (ix1 k)) ?_
  exact Finset.sum_congr rfl fun e _ => (layer1_eq x0 x1 x2 dk hdk (src x1 e) k).symm

/-- The blocked second layer at (s, c) is the reference's second product there times D s. -/
theorem layer2_eq (s : Fin 100000) (c : Fin 32) :
    layer2 A1 dk x4 x3 (ix2 s c)
      = val_main_v50 (F := Ideal) x0 x1 x2 x3 x4 (ix2 s c) * val_main_v16 (F := Ideal) x1 (ix1 s) := by
  rw [layer2_apply, hidden2_apply, hdk]
  refine congrArg (· * val_main_v16 (F := Ideal) x1 (ix1 s)) (Finset.sum_congr rfl fun k _ => ?_)
  rw [pre1_eq x0 x1 x2 x3 dk hdk A1 hA1 s k, hdk]

/-- The summed blocked second layer, times D n, plus the second bias, is the reference's result. -/
theorem kernel_eq_reference (n : Fin 100000) (c : Fin 32) :
    dk (ix2 n (0 : Fin 1)) * (0 + ∑ e ∈ inb x1 n, layer2 A1 dk x4 x3 (ix2 (src x1 e) c)) + x5 (ix1 c)
      = val_main_v81 (F := Ideal) x0 x1 x2 x3 x4 x5 (ix2 n c) := by
  rw [out_apply, edge_sum_factor x1 (fun e => val_main_v50 (F := Ideal) x0 x1 x2 x3 x4 (ix2 (src x1 e) c)) n, hdk,
    mul_comm (val_main_v16 (F := Ideal) x1 (ix1 n))]
  refine congrArg (fun z => (0 + z) * val_main_v16 (F := Ideal) x1 (ix1 n) + x5 (ix1 c)) ?_
  exact Finset.sum_congr rfl fun e _ => layer2_eq x0 x1 x2 x3 x4 dk hdk A1 hA1 (src x1 e) c

end Blocked

end Cert.LayersAgree

end
-- ==== Proof.Agree.lean ====
/-
  The two programs compute one array.

  At node `n`, column `k` the kernel program's result is the node's degree factor times the sum, over the edges into `n`,
  of layer 2's scaled product at the edge's source, plus the bias, where layer 2 is fed the aggregate of layer 1's scaled
  product; the reference's result is the same sums with each edge's message scaled by both ends' degree factors. The
  degree factor of a node is nonnegative and finite whatever the inputs, and the target's factor is the same for every
  edge of one node's sum, so it moves across the sum: the two are equal on the extended reals, for every input.
-/
import proofs.«143533_j48722109005962_2_alg».proof.Proof.KernelHost
import proofs.«143533_j48722109005962_2_alg».proof.Proof.LayersAgree

set_option maxRecDepth 16384

noncomputable section

-- nested under the generated modules' namespace so that their short names resolve to them first
namespace Cert.KernelIdeal.Gen.Agree

open Idealize.ShloMosaic Idealize.ShloMosaic.TcCoe Idealize.SL.Sem Idealize.ShloMosaic.ValueIdx
open Cert.KernelIdeal.Gen.KHost

variable (m : (ℓ : Loc nD τ sig) → Buf (Elt Ideal) ℓ) (ρ : Dev nD → PrngReg) (c : Dev nD)

/-- The kernel program's result array is the reference's last stage of the same six argument arrays. -/
theorem result_eq :
    out m ρ c
      = Cert.ReferenceIdeal.ReadP.val_main_v81 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  obtain ⟨n, k, rfl⟩ : ∃ (n : Fin 100000) (k : Fin 32), i = ix2 n k := ⟨i 0, i 1, eq_ix2 i⟩
  rw [out_apply, y2_eq]
  unfold b2
  exact Cert.LayersAgree.kernel_eq_reference _ _ _ _ _ _ (dk m ρ c) (dk_apply m ρ c)
    (a1 m ρ c) (fun s j => by rw [a1_apply, y1_eq]) n k

end Cert.KernelIdeal.Gen.Agree

end
-- ==== Proof.lean ====
/-
  The certificate of the two-layer graph convolution: a kernel program (two kernel regions — each a dense product of a
  node matrix with a weight matrix, the rows scaled by the nodes' degree factor — among host stretches that gather the
  rows at the edges' sources and add them at the edges' targets) against the reference (the same two layers with each
  edge's message scaled by the product of its two ends' degree factors).

  The three frames are the generated ones (the reference's is its run with the result dropped). The idealization rewrote
  nothing, so `preserves` is trivial. For `algebraic`: the kernel program's run names its result (the buffer contents at
  the last segment boundary), the reference's run names its result (its last stage of the argument arrays), and the two
  are one array, index by index on the extended reals: the target's degree factor — nonnegative and finite for every
  input — is the same on all edges of one node's sum and moves across it.
-/
import proofs.«143533_j48722109005962_2_alg».proof.Defs
import proofs.«143533_j48722109005962_2_alg».proof.Proof.Gen.Kernel
import proofs.«143533_j48722109005962_2_alg».proof.Proof.Gen.Kernel.Skeleton
import proofs.«143533_j48722109005962_2_alg».proof.Proof.Gen.Kernel.Launch
import proofs.«143533_j48722109005962_2_alg».proof.Proof.Gen.Kernel.Points
import proofs.«143533_j48722109005962_2_alg».proof.Proof.Gen.Kernel.Frame
import proofs.«143533_j48722109005962_2_alg».proof.Proof.Gen.KernelIdeal
import proofs.«143533_j48722109005962_2_alg».proof.Proof.Gen.KernelIdeal.Skeleton
import proofs.«143533_j48722109005962_2_alg».proof.Proof.Gen.KernelIdeal.Launch
import proofs.«143533_j48722109005962_2_alg».proof.Proof.Gen.KernelIdeal.Points
import proofs.«143533_j48722109005962_2_alg».proof.Proof.Gen.KernelIdeal.Frame
import proofs.«143533_j48722109005962_2_alg».proof.Proof.Gen.ReferenceIdeal
import proofs.«143533_j48722109005962_2_alg».proof.Proof.Gen.Pre_finite_inputs
import proofs.«143533_j48722109005962_2_alg».proof.Proof.KernelRun
import proofs.«143533_j48722109005962_2_alg».proof.Proof.Agree
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2) (Cert.ReferenceIdeal.ValueP.run (F := Ideal) m ρ)

/-- Both programs run, and end with one result array: the kernel program's, which the reference's last stage of the
    agreeing arguments equals. -/
theorem algebraic : Cert.algebraic_KernelIdeal_ReferenceIdeal := by
  intro m ρ m' ρ' _ hagree
  refine ⟨fun c => Cert.KernelIdeal.Gen.W7 m ρ c (Proc.devRef .tc Cert.KernelIdeal.main_v46),
    Cert.KernelIdeal.Gen.KRun.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v81_eq, (hagree c).1, (hagree c).2.1, (hagree c).2.2.1, (hagree c).2.2.2.1,
    (hagree c).2.2.2.2.1, (hagree c).2.2.2.2.2]
  exact (Cert.KernelIdeal.Gen.Agree.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
